-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S2x131072x128 : Shape := ⟨3, ![2, 131072, 128]⟩
abbrev S2x3x128 : Shape := ⟨3, ![2, 3, 128]⟩
abbrev S1x4096x128 : Shape := ⟨3, ![1, 4096, 128]⟩
abbrev S1x3x128 : Shape := ⟨3, ![1, 3, 128]⟩
abbrev S16x128 : Shape := ⟨2, ![16, 128]⟩
abbrev S4096x128 : Shape := ⟨2, ![4096, 128]⟩
abbrev S128 : Shape := ⟨1, ![128]⟩
abbrev S1x128 : Shape := ⟨2, ![1, 128]⟩
abbrev S6x128 : Shape := ⟨2, ![6, 128]⟩
abbrev S1 : Shape := ⟨1, ![1]⟩
abbrev S1x1 : Shape := ⟨2, ![1, 1]⟩
abbrev S3x128 : Shape := ⟨2, ![3, 128]⟩
abbrev S_ : Shape := ⟨0, ![]⟩
abbrev S1x10 : Shape := ⟨2, ![1, 10]⟩
abbrev S10 : Shape := ⟨1, ![10]⟩
abbrev S2x10 : Shape := ⟨2, ![2, 10]⟩

abbrev nBuf : Space → Nat
  | .hbm => 32
  | .vmem => 9
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S2x131072x128, .f32⟩
  | .hbm, ⟨3, _⟩ => ⟨S2x131072x128, .i32⟩
  | .hbm, ⟨4, _⟩ => ⟨S2x3x128, .f32⟩
  | .hbm, ⟨5, _⟩ => ⟨S_, .f32⟩
  | .hbm, ⟨6, _⟩ => ⟨S3x128, .f32⟩
  | .hbm, ⟨7, _⟩ => ⟨S1x10, .f32⟩
  | .hbm, ⟨8, _⟩ => ⟨S10, .f32⟩
  | .hbm, ⟨9, _⟩ => ⟨S1x10, .f32⟩
  | .hbm, ⟨10, _⟩ => ⟨S10, .f32⟩
  | .hbm, ⟨11, _⟩ => ⟨S1x10, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S10, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S10, .f32⟩
  | .hbm, ⟨28, _⟩ => ⟨S10, .f32⟩
  | .hbm, ⟨29, _⟩ => ⟨S1x10, .f32⟩
  | .hbm, ⟨30, _⟩ => ⟨S1x10, .f32⟩
  | .hbm, ⟨31, _⟩ => ⟨S2x10, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .i32⟩
  | .local _ .vmem, ⟨3, _⟩ => ⟨S1x4096x128, .i32⟩
  | .local _ .vmem, ⟨4, _⟩ => ⟨S1x3x128, .f32⟩
  | .local _ .vmem, ⟨5, _⟩ => ⟨S1x3x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v184 : BitVec 1 := Scalar.cmpi .eq arg1 c31_i32
  let v185 : BitVec 32 := Scalar.extui v184
  let c0_i32_55 : BitVec 32 := 0#32
  let v186 : BitVec 1 := Scalar.cmpi .ne v185 c0_i32_55
  v186

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S2x131072x128 : S33554432.ShapeCasts S2x131072x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S128 : S4096x128.Reduces [0] S128
  shapeCasts_S128_S1x128 : S128.ShapeCasts S1x128
  natLt_1_32 : 1 < 32
  concatenates_S1x128_S1x128_S1x128_S1x128_S1x128_S1x128_S1x128_S1x128_S1x128_S1x128_S6x128_S16x128_d0 : Shape.Concatenates [S1x128, S1x128, S1x128, S1x128, S1x128, S1x128, S1x128, S1x128, S1x128, S1x128, S6x128] S16x128 0
  iota_S1x128_d1_w32 : S1x128.Iotas .tc 32 [1]
  inb_S16x128_S1x128_0_0 : ∀ a, (![0, 0] : Fin 2 → Nat) a + S1x128.size a ≤ S16x128.size a
  h_S1x128 : 0 < S1x128.numel
  reduces_S1x128_S1 : S1x128.Reduces [1] S1
  shapeCasts_S1_S1x1 : S1.ShapeCasts S1x1
  shapeCasts_S1x1_S1x1 : S1x1.ShapeCasts S1x1
  broadcasts_S1x1_S1x128 : S1x1.Broadcasts S1x128
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  concatenates_S1x128_S1x128_S1x128_S3x128_d0 : Shape.Concatenates [S1x128, S1x128, S1x128] S3x128 0
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  reducesTo_S2x3x128_S3x128_d0 : S2x3x128.ReducesTo [0] S3x128
  h_S_ : 0 < S_.numel
  slices_S3x128_S1x10_0_0 : S3x128.Slices ![0, 0] S1x10
  shapeCasts_S1x10_S10 : S1x10.ShapeCasts S10
  slices_S3x128_S1x10_1_0 : S3x128.Slices ![1, 0] S1x10
  slices_S3x128_S1x10_2_0 : S3x128.Slices ![2, 0] S1x10
  bcast_S_S10 : S_.BroadcastsInDim S10 (![] : Fin 0 → Fin S10.rank)
  bcast_S10_S1x10_1 : S10.BroadcastsInDim S1x10 (![1] : Fin 1 → Fin S1x10.rank)
  concatenates_S1x10_S1x10_S2x10_d0 : Shape.Concatenates [S1x10, S1x10] S2x10 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x131072x128.size a
  hwx0_0 : ∀ i : grid0.Coords, EltTy.bits .f32 = 32 ∨ (Rect.block (s := S2x131072x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x131072x128.size a
  hwx0_1 : ∀ i : grid0.Coords, EltTy.bits .i32 = 32 ∨ (Rect.block (s := S2x131072x128) S1x4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S10 : Shape := ⟨1, ![10]⟩
abbrev S33554432x1 : Shape := ⟨2, ![33554432, 1]⟩
abbrev S1x10 : Shape := ⟨2, ![1, 10]⟩
abbrev S2x10 : Shape := ⟨2, ![2, 10]⟩

abbrev nBuf : Space → Nat
  | .hbm => 60
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S33554432, .f32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S_, .f32⟩
  | .hbm, ⟨27, _⟩ => ⟨S33554432, .f32⟩
  | .hbm, ⟨28, _⟩ => ⟨S_, .f32⟩
  | .hbm, ⟨29, _⟩ => ⟨S10, .f32⟩
  | .hbm, ⟨30, _⟩ => ⟨S33554432x1, .i32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S33554432x1, .i32⟩
  | .hbm, ⟨35, _⟩ => ⟨S10, .f32⟩
  | .hbm, ⟨36, _⟩ => ⟨S33554432, .f32⟩
  | .hbm, ⟨37, _⟩ => ⟨S_, .f32⟩
  | .hbm, ⟨38, _⟩ => ⟨S10, .f32⟩
  | .hbm, ⟨39, _⟩ => ⟨S33554432x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S10, .f32⟩
  | .hbm, ⟨46, _⟩ => ⟨S10, .i1⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S_, .f32⟩
  | .hbm, ⟨55, _⟩ => ⟨S10, .f32⟩
  | .hbm, ⟨56, _⟩ => ⟨S10, .f32⟩
  | .hbm, ⟨57, _⟩ => ⟨S1x10, .f32⟩
  | .hbm, ⟨58, _⟩ => ⟨S1x10, .f32⟩
  | .hbm, ⟨59, _⟩ => ⟨S2x10, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_v30 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  bcast_S10_S1x10_1 : S10.BroadcastsInDim S1x10 (![1] : Fin 1 → Fin S1x10.rank)
  concatenates_S1x10_S1x10_S2x10_d0 : Shape.Concatenates [S1x10, S1x10] S2x10 0
  scatter_S10_S33554432x1_S33554432_n_0_0_1_wf : ScatterDims.WF S10 S33554432x1 S33554432 [] [0] [0] 1

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf

class Facts : Prop extends Facts₀ where

variable [Facts]
-- ==== Proof.Bins.lean ====
/-
  The ten-bin reliability statistics as pure functions of the two argument arrays, at the extended reals.

  An entry's confidence is the logistic of its logit; its bin is ⌈10 · confidence⌉ − 1 clipped into 0 … 9, as a
  signed word. For each bin the three statistics are sums over the entries of that bin: the count (a sum of ones),
  the sum of confidences, and the sum of labels read as numbers. The result has two rows of ten: the mean label
  and the mean confidence of each bin, each sum divided by max(count, 1), and zero where the count is not positive.
-/
import Idealize.ShloMosaic.PureOps.Ideal
import Idealize.ShloMosaic.Lib.ValueIdx

noncomputable section

open scoped BigOperators

namespace Cert.Bins

open Idealize.ShloMosaic Idealize.ShloMosaic.ValueIdx

/-- The flat arrays' shape, the ten bins', and the result's. -/
abbrev SN : Shape := ⟨1, ![33554432]⟩
abbrev S10 : Shape := ⟨1, ![10]⟩
abbrev S1x10 : Shape := ⟨2, ![1, 10]⟩
abbrev S2x10 : Shape := ⟨2, ![2, 10]⟩
abbrev S0 : Shape := ⟨0, ![]⟩

/-- The confidence of a logit. -/
def conf (x : Ideal .f32) : Ideal .f32 := FloatOps.logistic x

/-- The bin of a confidence, as a signed word: ⌈10 c⌉ − 1, clipped into 0 … 9. -/
def binWord (c : Ideal .f32) : BitVec 32 :=
  IntOp.minsi 9#32 (IntOp.maxsi 0#32
    (IntOp.subi (FloatOps.fptosi 32 (FloatOps.ceil (FloatOps.mulf c (FloatOps.ofBits .f32 0x41200000#32)))) 1#32))

/-- The bin of entry `e` of the logits. -/
def binOf (x : FVec Ideal SN .f32) (e : Fin 33554432) : BitVec 32 := binWord (conf (x (ix1 e)))

/-- The sum of `q` over the entries whose bin is `b`. -/
def binSum (x : FVec Ideal SN .f32) (q : Fin 33554432 → EReal) (b : Fin 10) : EReal :=
  ∑ e : Fin 33554432, if (binOf x e).toInt = (b.val : ℤ) then q e else 0

/-- How many entries each bin has. -/
def counts (x : FVec Ideal SN .f32) : FVec Ideal S10 .f32 := fun i => binSum x (fun _ => 1) (i 0)
/-- Each bin's sum of confidences. -/
def sumConf (x : FVec Ideal SN .f32) : FVec Ideal S10 .f32 := fun i => binSum x (fun e => conf (x (ix1 e))) (i 0)
/-- Each bin's sum of labels. -/
def sumPos (x : FVec Ideal SN .f32) (y : IVec SN 32) : FVec Ideal S10 .f32 :=
  fun i => binSum x (fun e => (FloatOps.sitofp .f32 (y (ix1 e)) : Ideal .f32)) (i 0)

/-- One row of means: `s / max(cnt, 1)` where `cnt > 0`, zero elsewhere, as a 1 × 10 row. -/
def meanRow (hz : S0.BroadcastsInDim S10 (![] : Fin 0 → Fin S10.rank)) (hb : S10.BroadcastsInDim S1x10 (![1] : Fin 1 → Fin S1x10.rank))
    (cnt s : FVec Ideal S10 .f32) : FVec Ideal S1x10 .f32 :=
  broadcastInDim S1x10 ![1] hb
    (select (cmpf .ogt cnt (broadcastInDim S10 ![] hz (constant S0 .f32 0x00000000#32)))
      (Host.divf s (maximumf cnt (broadcastInDim S10 ![] hz (constant S0 .f32 0x3F800000#32))))
      (broadcastInDim S10 ![] hz (id (constant S0 .f32 0x00000000#32))))

/-- The two rows of means from the three statistics: mean label first, mean confidence second. -/
def means (hz : S0.BroadcastsInDim S10 (![] : Fin 0 → Fin S10.rank)) (hb : S10.BroadcastsInDim S1x10 (![1] : Fin 1 → Fin S1x10.rank))
    (hc : Shape.Concatenates [S1x10, S1x10] S2x10 0)
    (cnt sc sp : FVec Ideal S10 .f32) : FVec Ideal S2x10 .f32 :=
  concatenate S2x10 0 [⟨S1x10, meanRow hz hb cnt sp⟩, ⟨S1x10, meanRow hz hb cnt sc⟩] hc

/-- The whole result as a function of the two arrays. -/
def result (hz : S0.BroadcastsInDim S10 (![] : Fin 0 → Fin S10.rank)) (hb : S10.BroadcastsInDim S1x10 (![1] : Fin 1 → Fin S1x10.rank))
    (hc : Shape.Concatenates [S1x10, S1x10] S2x10 0)
    (x : FVec Ideal SN .f32) (y : IVec SN 32) : FVec Ideal S2x10 .f32 :=
  means hz hb hc (counts x) (sumConf x) (sumPos x y)

end Cert.Bins

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.RefSide.lean ====
/-
  The reference's result as a function of its two argument arrays is the ten-bin statistics of the specification.

  The reference computes each entry's confidence as 1 / (1 + exp(-x)), which is the logistic at the extended reals;
  its bin word as min(9, max(0, ⌈conf · 10⌉ − 1)); and each of the three statistics by an accumulating scatter of a
  vector of updates (ones, the confidences, the labels as numbers) into ten zeros at the column of bin words. Read at
  a bin, such a scatter is the sum of the updates of the entries whose bin word, read signed, is that bin: the
  specification's bin sums. The means are then the same term on both sides.
-/
import proofs.«180970_j44813688766553_2_alg».proof.ReferenceIdeal
import proofs.«180970_j44813688766553_2_alg».proof.Proof.Gen.ReferenceIdeal
import proofs.«180970_j44813688766553_2_alg».proof.Proof.Bins
import proofs.«180970_j44813688766553_2_alg».proof.Proof.LibRows1
import proofs.«180970_j44813688766553_2_alg».proof.Proof.RefRun
import Idealize.ShloMosaic.Lib.IdealHost
import Idealize.ShloMosaic.Lib.Pipeline.Value

noncomputable section

open scoped BigOperators

namespace Cert.RefSide

open Idealize.ShloMosaic Idealize.ShloMosaic.ValueIdx
open Cert.ReferenceIdeal Cert.ReferenceIdeal.Facts₀

variable [Cert.ReferenceIdeal.Facts₀]

/-- The confidences as the reference computes them: 1 / (1 + exp(-x)) entry by entry. -/
def confRef (x : FVec Ideal S33554432 .f32) : FVec Ideal S33554432 .f32 :=
  Host.divf (broadcastInDim S33554432 ![] bcast_S_S33554432 (constant S_ .f32 0x3F800000#32))
    (addf (broadcastInDim S33554432 ![] bcast_S_S33554432 (constant S_ .f32 0x3F800000#32)) (Host.exp (Host.negf x)))

/-- The bin words as the reference computes them: ⌈conf · 10⌉ − 1 clipped into 0 … 9. -/
def binsRef (x : FVec Ideal S33554432 .f32) : IVec S33554432 32 :=
  minsi (broadcastInDim S33554432 ![] bcast_S_S33554432 (id (constantI S_ 32 9#32)))
    (maxsi (broadcastInDim S33554432 ![] bcast_S_S33554432 (id (constantI S_ 32 0#32)))
      (subi (fptosi 32 (Host.ceil (mulf (confRef x)
          (broadcastInDim S33554432 ![] bcast_S_S33554432 (constant S_ .f32 0x41200000#32)))))
        (broadcastInDim S33554432 ![] bcast_S_S33554432 (constantI S_ 32 1#32))))

/-- The column of start indices the three scatters take. -/
def idxRef (x : FVec Ideal S33554432 .f32) : IVec S33554432x1 32 :=
  broadcastInDim S33554432x1 ![0] bcast_S33554432_S33554432x1_0 (binsRef x)

/-- Ten zeros: the operand of each scatter. -/
def zeros10 : FVec Ideal S10 .f32 := broadcastInDim S10 ![] bcast_S_S10 (constant S_ .f32 0x00000000#32)

/-- The three statistics as the reference computes them. -/
def countsRef (x : FVec Ideal S33554432 .f32) : FVec Ideal S10 .f32 :=
  Host.scatterAdd scatter_S10_S33554432x1_S33554432_n_0_0_1 zeros10 (idxRef x)
    (broadcastInDim S33554432 ![] bcast_S_S33554432 (constant S_ .f32 0x3F800000#32))
def sumConfRef (x : FVec Ideal S33554432 .f32) : FVec Ideal S10 .f32 :=
  Host.scatterAdd scatter_S10_S33554432x1_S33554432_n_0_0_1 zeros10 (idxRef x) (confRef x)
def sumPosRef (x : FVec Ideal S33554432 .f32) (y : IVec S33554432 32) : FVec Ideal S10 .f32 :=
  Host.scatterAdd scatter_S10_S33554432x1_S33554432_n_0_0_1 zeros10 (idxRef x) (sitofp .f32 y)

/-- The reference's confidence of an entry is the logistic of its logit. -/
theorem confRef_apply (x : FVec Ideal S33554432 .f32) (i : S33554432.Idx) : confRef x i = Cert.Bins.conf (x i) := by
  show Ideal.div (Ideal.ofBits .f32 0x3F800000#32) (Ideal.ofBits .f32 0x3F800000#32 + Ideal.exp (-(x i)))
    = Ideal.logistic (x i)
  rw [Ideal.ofBits_one_f32]
  rfl

/-- The reference's bin word of an entry is the specification's. -/
theorem binsRef_apply (x : FVec Ideal S33554432 .f32) (e : Fin 33554432) : binsRef x (ix1 e) = Cert.Bins.binOf x e := by
  show IntOp.minsi 9#32 (IntOp.maxsi 0#32 (IntOp.subi (FloatOps.fptosi 32 (FloatOps.hostUnary .ceil
      (FloatOps.mulf (confRef x (ix1 e)) (FloatOps.ofBits .f32 0x41200000#32)))) 1#32)) = _
  rw [confRef_apply]
  rfl

/-- The column of start indices at row e is entry e's bin word. -/
theorem idxRef_apply (x : FVec Ideal S33554432 .f32) (e : Fin 33554432) :
    idxRef x (ix2 e (0 : Fin 1)) = Cert.Bins.binOf x e := by
  unfold idxRef
  rw [broadcastInDim_apply _ bcast_S33554432_S33554432x1_0 (binsRef x) (ix2 e (0 : Fin 1)) (ix1 e) (fun a => match a with
    | ⟨0, _⟩ => by show e.val = if (33554432 : Nat) = 1 then 0 else e.val; rw [if_neg (by decide)])]
  exact binsRef_apply x e

/-- Ten zeros read at a bin: zero. -/
theorem zeros10_apply (i : S10.Idx) : zeros10 i = (0 : EReal) := by
  unfold zeros10
  rw [broadcastInDim_scalar_apply, constant_apply, Ideal.ofBits_zero_f32]

/-- The scatter's dimension numbers are those of an entry-indexed accumulating scatter of a vector. -/
theorem scatter_dims : scatter_S10_S33554432x1_S33554432_n_0_0_1
    = Cert.Rows1.scatter1 10 33554432 scatter_S10_S33554432x1_S33554432_n_0_0_1_wf := rfl

/-- At the extended reals the host's accumulating scatter is the exact one. -/
theorem scatterAdd_ideal {s si u : Shape} {w : Nat} (d : ScatterDims s si u) (v : FVec Ideal s .f32) (idx : IVec si w)
    (upd : FVec Ideal u .f32) : Host.scatterAdd d v idx upd = Ideal.hostScatterAdd d v idx upd := rfl

/-- An accumulating scatter into ten zeros at the column of bin words, read at bin n: the sum of the updates of the
    entries whose bin is n. -/
theorem scatter_apply (x : FVec Ideal S33554432 .f32) (upd : FVec Ideal S33554432 .f32) (n : Fin 10) :
    Host.scatterAdd scatter_S10_S33554432x1_S33554432_n_0_0_1 zeros10 (idxRef x) upd (ix1 n)
      = Cert.Bins.binSum x (fun e => upd (ix1 e)) n := by
  rw [scatterAdd_ideal, scatter_dims, Cert.Rows1.scatterAdd1_apply, zeros10_apply, zero_add]
  unfold Cert.Bins.binSum
  refine Finset.sum_congr rfl fun e _ => ?_
  rw [idxRef_apply x e]

theorem countsRef_eq (x : FVec Ideal S33554432 .f32) : countsRef x = Cert.Bins.counts x := by
  funext i
  obtain ⟨n, rfl⟩ : ∃ n : Fin 10, i = ix1 n := ⟨i 0, eq_ix1 i⟩
  refine (scatter_apply x _ n).trans ?_
  show Cert.Bins.binSum x (fun _ => Ideal.ofBits .f32 0x3F800000#32) n = Cert.Bins.binSum x (fun _ => 1) n
  rw [Ideal.ofBits_one_f32]

theorem sumConfRef_eq (x : FVec Ideal S33554432 .f32) : sumConfRef x = Cert.Bins.sumConf x := by
  funext i
  obtain ⟨n, rfl⟩ : ∃ n : Fin 10, i = ix1 n := ⟨i 0, eq_ix1 i⟩
  refine (scatter_apply x _ n).trans ?_
  show Cert.Bins.binSum x (fun e => confRef x (ix1 e)) n = Cert.Bins.binSum x (fun e => Cert.Bins.conf (x (ix1 e))) n
  simp only [confRef_apply]

theorem sumPosRef_eq (x : FVec Ideal S33554432 .f32) (y : IVec S33554432 32) : sumPosRef x y = Cert.Bins.sumPos x y := by
  funext i
  obtain ⟨n, rfl⟩ : ∃ n : Fin 10, i = ix1 n := ⟨i 0, eq_ix1 i⟩
  exact scatter_apply x _ n

/-- The reference's whole result as a function of its two arrays: the specification's two rows of means, of the three
    statistics as the reference computes them. -/
def valRef (x : FVec Ideal S33554432 .f32) (y : IVec S33554432 32) : FVec Ideal S2x10 .f32 :=
  Cert.Bins.means bcast_S_S10 bcast_S10_S1x10_1 concatenates_S1x10_S1x10_S2x10_d0 (countsRef x) (sumConfRef x) (sumPosRef x y)

/-- The reference's result as a function of its arrays is the specification's. -/
theorem valRef_eq (x : FVec Ideal S33554432 .f32) (y : IVec S33554432 32) :
    valRef x y = Cert.Bins.result bcast_S_S10 bcast_S10_S1x10_1 concatenates_S1x10_S1x10_S2x10_d0 x y := by
  unfold valRef Cert.Bins.result
  rw [countsRef_eq, sumConfRef_eq, sumPosRef_eq]

end Cert.RefSide

namespace Cert.RefSide

open Idealize.ShloMosaic Idealize.ShloMosaic.ValueIdx Idealize.ShloMosaic.TcCoe Idealize.SL.Sem
open Cert.ReferenceIdeal Cert.ReferenceIdeal.Gen

/-- The run's composed term of the reference is that function of the two argument arrays … -/
theorem res_eq_valRef (m : (ℓ : Loc nD τ sig) → Buf (Elt Ideal) ℓ) (c : Dev nD) :
    Cert.ReferenceIdeal.ValueP.res_main_v34 (F := Ideal) m c
      = valRef (m ((c.tc : Thread nD τ).loc main_arg0)) (m ((c.tc : Thread nD τ).loc main_arg1)) := by
  unfold Cert.ReferenceIdeal.ValueP.res_main_v34 valRef Cert.Bins.means Cert.Bins.meanRow countsRef sumConfRef sumPosRef
    zeros10 idxRef binsRef confRef
  rfl

/-- … hence the specification's result of them. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v34 (F := Ideal) m c
      = Cert.Bins.result Facts₀.bcast_S_S10 Facts₀.bcast_S10_S1x10_1 Facts₀.concatenates_S1x10_S1x10_S2x10_d0
          (m ((c.tc : Thread _ _).loc Cert.ReferenceIdeal.main_arg0)) (m ((c.tc : Thread _ _).loc Cert.ReferenceIdeal.main_arg1)) :=
  (res_eq_valRef m c).trans (valRef_eq _ _)

end Cert.RefSide

end
-- ==== Proof.FiniteLogits.lean ====
/-
  The precondition makes every logit a real number.

  The precondition's function takes the absolute value of each logit, compares it (ordered, strictly below) with
  the word of plus infinity, and folds the comparisons by "and" from the word 1. If the fold is 1, every
  comparison is 1, so |x i| < +inf at the extended reals for every entry; an extended real whose absolute value
  is below the top element is neither the bottom nor the top element, hence the image of a real.
-/
import proofs.«180970_j44813688766553_2_alg».proof.Pre_finite_inputs
import proofs.«180970_j44813688766553_2_alg».proof.Proof.Gen.Pre_finite_inputs
import Idealize.ShloMosaic.PureOps.Ideal
import Idealize.ShloMosaic.Lib.ReduceAll

noncomputable section

namespace Cert.FiniteLogits

open Idealize.ShloMosaic

/-- The shape of rank zero has one index. -/
instance : Subsingleton Cert.Pre_finite_inputs.S_.Idx := ⟨fun a b => funext fun d => d.elim0⟩

/-- The word 0x7F800000 denotes the top element. -/
theorem inf_word : Ideal.ofBits .f32 0x7F800000#32 = (⊤ : EReal) := by
  simp [Ideal.ofBits, Ideal.ieee]

/-- An extended real whose absolute value max(a, -a) is below the top element is a real. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the precondition every logit is a real number. -/
theorem real_of_pre [Cert.Pre_finite_inputs.Facts] (x : FVec Ideal Cert.Pre_finite_inputs.S33554432 .f32)
    (y : IVec Cert.Pre_finite_inputs.S33554432 32)
    (h : Cert.Pre_finite_inputs.fn (F := Ideal) x y = fun _ => 1#1) : ∀ i, ∃ r : ℝ, x i = (r : EReal) := by
  intro i
  have e := congrFun h (fun d => d.elim0)
  dsimp only [Cert.Pre_finite_inputs.fn] at e
  have hi := Host.reduce_andi_all _ _ _ _ _ e i
  have hlt : max (x i) (-(x i)) < (⊤ : EReal) := by
    have hc : Ideal.cmp .olt (max (x i) (-(x i))) (Ideal.ofBits .f32 0x7F800000#32) = 1#1 := hi
    rw [inf_word] at hc
    unfold Ideal.cmp at hc
    by_contra hn
    simp [hn] at hc
  exact real_of_abs_lt_top (x i) hlt

end Cert.FiniteLogits

end
-- ==== Proof.Step.lean ====
/-
  One grid step of the kernel, as three 16 × 128 arrays of column sums.

  A step reads a 4096 × 128 block of logits and of labels. For each bin b and each lane (column) it sums, down
  the 4096 rows, the 0/1 mask "this entry's bin is b" (the counts), the confidence times the mask, and the label
  times the mask. Bins 0 … 8 are computed so; bin 9 is the column total minus the sum of bins 0 … 8, added from
  zero in order. The ten rows are stacked with six zero rows under them, and the stack is added to the running
  16 × 128 array the kernel keeps for that statistic. This module names those arrays, and says what each of the
  three control cases of a step (first step of a half, a middle step, last step of a half) leaves in each
  running array: the stack added to what was there, which at a first step is the zero array just stored.
-/
import proofs.«180970_j44813688766553_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Step

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The sum of each column of a 4096 × 128 array, as a 1 × 128 row. -/
def colSum (v : FVec F S4096x128 .f32) : FVec F S1x128 .f32 :=
  shapeCast S1x128 (multiReduction .add [0] S128 v 0x00000000#32 reduces_S4096x128_S128 (.inl rfl) rfl) shapeCasts_S128_S1x128

/-- The 0/1 mask of the entries whose bin word is `b`, as numbers. -/
def mask (k : IVec S4096x128 32) (b : BitVec 32) : FVec F S4096x128 .f32 :=
  sitofp .f32 (extui 32 (cmpi .eq k (broadcast S4096x128 b)) natLt_1_32)

/-- The zero row the sum of bins 0 … 8 starts from. -/
def zeroRow : FVec F S1x128 .f32 := broadcast S1x128 (Scalar.ofBits .f32 0x00000000#32)

/-- Bin 9's row: the column totals minus the rows of bins 0 … 8 added from zero in order. -/
def lastRow (tot : FVec F S1x128 .f32) (r : BitVec 32 → FVec F S1x128 .f32) : FVec F S1x128 .f32 :=
  subf tot (addf (addf (addf (addf (addf (addf (addf (addf (addf zeroRow (r 0#32)) (r 1#32)) (r 2#32)) (r 3#32)) (r 4#32)) (r 5#32)) (r 6#32)) (r 7#32)) (r 8#32))

/-- The ten bins' rows stacked over six zero rows. -/
def stack (tot : FVec F S1x128 .f32) (r : BitVec 32 → FVec F S1x128 .f32) : FVec F S16x128 .f32 :=
  concatenate S16x128 0 [⟨S1x128, r 0#32⟩, ⟨S1x128, r 1#32⟩, ⟨S1x128, r 2#32⟩, ⟨S1x128, r 3#32⟩, ⟨S1x128, r 4#32⟩, ⟨S1x128, r 5#32⟩, ⟨S1x128, r 6#32⟩, ⟨S1x128, r 7#32⟩, ⟨S1x128, r 8#32⟩, ⟨S1x128, lastRow tot r⟩, ⟨S6x128, k0_pay90 (F := F)⟩]
    concatenates_S1x128_S1x128_S1x128_S1x128_S1x128_S1x128_S1x128_S1x128_S1x128_S1x128_S6x128_S16x128_d0

/-- The rows of the three statistics of a step over the logits block `x0` and the labels block `x1`. -/
def cntRows (x0 : Vec F S1x4096x128 .f32) (b : BitVec 32) : FVec F S1x128 .f32 := colSum (mask (k0_pay48 x0) b)
def confRows (x0 : Vec F S1x4096x128 .f32) (b : BitVec 32) : FVec F S1x128 .f32 := colSum (mulf (k0_pay47 x0) (mask (k0_pay48 x0) b))
def posRows (x0 : Vec F S1x4096x128 .f32) (x1 : Vec F S1x4096x128 .i32) (b : BitVec 32) : FVec F S1x128 .f32 :=
  colSum (mulf (k0_pay49 x1) (mask (k0_pay48 x0) b))

/-- The three stacks of a step. -/
def stackCnt (x0 : Vec F S1x4096x128 .f32) : FVec F S16x128 .f32 := stack k0_pay52 (cntRows x0)
def stackConf (x0 : Vec F S1x4096x128 .f32) : FVec F S16x128 .f32 := stack (colSum (k0_pay47 x0)) (confRows x0)
def stackPos (x0 : Vec F S1x4096x128 .f32) (x1 : Vec F S1x4096x128 .i32) : FVec F S16x128 .f32 := stack (colSum (k0_pay49 x1)) (posRows x0 x1)

/-! ## A first step of a half: the running arrays are zeroed, then gain their stacks -/

set_option maxHeartbeats 1600000 in
theorem first_cnt (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : cond0_0 i) (hc1 : ¬cond0_1 i)
    (x0 : Vec F S1x4096x128 .f32) (x1 : Vec F S1x4096x128 .i32) :
    sout0_A_0 c i arg2 harg2 arg3 harg3 arg4 harg4 arg5 harg5 arg6 harg6 arg7 harg7 hc0 hc1 x0 x1 = addf (k0_pay44 (F := F)) (stackCnt x0) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S16x128) hz2, View.readCov_unit_zero (S := S16x128) _ hz2]
  simp only [View.readAt_eq_ld]
  rw [harg2.read_unread]
  simp only [View.ld_unit_zero (S := S16x128) hz2, View.ld_unit_zero (S := S1x4096x128) hz3]
  unfold k0_pay93
  simp only [shapeCast_self]
  rfl

set_option maxHeartbeats 1600000 in
theorem first_conf (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : cond0_0 i) (hc1 : ¬cond0_1 i)
    (x0 : Vec F S1x4096x128 .f32) (x1 : Vec F S1x4096x128 .i32) :
    sout0_A_1 c i arg2 harg2 arg3 harg3 arg4 harg4 arg5 harg5 arg6 harg6 arg7 harg7 hc0 hc1 x0 x1 = addf (k0_pay45 (F := F)) (stackConf x0) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S16x128) hz2, View.readCov_unit_zero (S := S16x128) _ hz2]
  simp only [View.readAt_eq_ld]
  rw [harg2.read_unread]
  simp only [View.ld_unit_zero (S := S16x128) hz2, View.ld_unit_zero (S := S1x4096x128) hz3]
  unfold k0_pay1 k0_pay91
  simp only [shapeCast_self]
  rfl

set_option maxHeartbeats 1600000 in
theorem first_pos (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : cond0_0 i) (hc1 : ¬cond0_1 i)
    (x0 : Vec F S1x4096x128 .f32) (x1 : Vec F S1x4096x128 .i32) :
    sout0_A_2 c i arg2 harg2 arg3 harg3 arg4 harg4 arg5 harg5 arg6 harg6 arg7 harg7 hc0 hc1 x0 x1 = addf (k0_pay46 (F := F)) (stackPos x0 x1) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S16x128) hz2, View.readCov_unit_zero (S := S16x128) _ hz2]
  simp only [View.readAt_eq_ld]
  rw [harg2.read_unread, harg3.read_unread]
  simp only [View.ld_unit_zero (S := S16x128) hz2, View.ld_unit_zero (S := S1x4096x128) hz3]
  unfold k0_pay2 k0_pay92
  simp only [shapeCast_self]
  rfl

/-! ## A middle step: each running array gains its stack -/

set_option maxHeartbeats 1600000 in
theorem mid_cnt (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : ¬cond0_1 i)
    (x0 : Vec F S1x4096x128 .f32) (x1 : Vec F S1x4096x128 .i32) (xs0 xs1 xs2 : Vec F S16x128 .f32) :
    sout0_B_0 c i arg2 harg2 arg3 harg3 arg4 harg4 arg5 harg5 arg6 harg6 arg7 harg7 hc0 hc1 x0 x1 xs0 xs1 xs2 = addf xs0 (stackCnt x0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld]
  rw [harg2.read_unread, harg5.read_unread]
  simp only [View.ld_unit_zero (S := S16x128) hz2, View.ld_unit_zero (S := S1x4096x128) hz3]
  unfold k0_pay93
  simp only [shapeCast_self]
  rfl

set_option maxHeartbeats 1600000 in
theorem mid_conf (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : ¬cond0_1 i)
    (x0 : Vec F S1x4096x128 .f32) (x1 : Vec F S1x4096x128 .i32) (xs0 xs1 xs2 : Vec F S16x128 .f32) :
    sout0_B_1 c i arg2 harg2 arg3 harg3 arg4 harg4 arg5 harg5 arg6 harg6 arg7 harg7 hc0 hc1 x0 x1 xs0 xs1 xs2 = addf xs1 (stackConf x0) := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld]
  rw [harg2.read_unread, harg6.read_unread]
  simp only [View.ld_unit_zero (S := S16x128) hz2, View.ld_unit_zero (S := S1x4096x128) hz3]
  unfold k0_pay1 k0_pay91
  simp only [shapeCast_self]
  rfl

set_option maxHeartbeats 1600000 in
theorem mid_pos (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : ¬cond0_1 i)
    (x0 : Vec F S1x4096x128 .f32) (x1 : Vec F S1x4096x128 .i32) (xs0 xs1 xs2 : Vec F S16x128 .f32) :
    sout0_B_2 c i arg2 harg2 arg3 harg3 arg4 harg4 arg5 harg5 arg6 harg6 arg7 harg7 hc0 hc1 x0 x1 xs0 xs1 xs2 = addf xs2 (stackPos x0 x1) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld]
  rw [harg2.read_unread, harg3.read_unread, harg7.read_unread]
  simp only [View.ld_unit_zero (S := S16x128) hz2, View.ld_unit_zero (S := S1x4096x128) hz3]
  unfold k0_pay2 k0_pay92
  simp only [shapeCast_self]
  rfl

/-! ## A last step of a half: the same for the running arrays -/

set_option maxHeartbeats 1600000 in
theorem last_cnt (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec F S1x4096x128 .f32) (x1 : Vec F S1x4096x128 .i32) (xs0 xs1 xs2 : Vec F S16x128 .f32) :
    sout0_C_0 c i arg2 harg2 arg3 harg3 arg4 harg4 arg5 harg5 arg6 harg6 arg7 harg7 hc0 hc1 x0 x1 xs0 xs1 xs2 = addf xs0 (stackCnt x0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld]
  rw [harg2.read_unread, harg5.read_unread]
  simp only [View.ld_unit_zero (S := S16x128) hz2, View.ld_unit_zero (S := S1x4096x128) hz3]
  unfold k0_pay93
  simp only [shapeCast_self]
  rfl

set_option maxHeartbeats 1600000 in
theorem last_conf (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec F S1x4096x128 .f32) (x1 : Vec F S1x4096x128 .i32) (xs0 xs1 xs2 : Vec F S16x128 .f32) :
    sout0_C_1 c i arg2 harg2 arg3 harg3 arg4 harg4 arg5 harg5 arg6 harg6 arg7 harg7 hc0 hc1 x0 x1 xs0 xs1 xs2 = addf xs1 (stackConf x0) := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld]
  rw [harg2.read_unread, harg6.read_unread]
  simp only [View.ld_unit_zero (S := S16x128) hz2, View.ld_unit_zero (S := S1x4096x128) hz3]
  unfold k0_pay1 k0_pay91
  simp only [shapeCast_self]
  rfl

set_option maxHeartbeats 1600000 in
theorem last_pos (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec F S1x4096x128 .f32) (x1 : Vec F S1x4096x128 .i32) (xs0 xs1 xs2 : Vec F S16x128 .f32) :
    sout0_C_2 c i arg2 harg2 arg3 harg3 arg4 harg4 arg5 harg5 arg6 harg6 arg7 harg7 hc0 hc1 x0 x1 xs0 xs1 xs2 = addf xs2 (stackPos x0 x1) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld]
  rw [harg2.read_unread, harg3.read_unread, harg7.read_unread]
  simp only [View.ld_unit_zero (S := S16x128) hz2, View.ld_unit_zero (S := S1x4096x128) hz3]
  unfold k0_pay2 k0_pay92
  simp only [shapeCast_self]
  rfl

/-! ## A last step of a half: the output block

  After its running arrays are updated, a last step reads rows 0 … 9 of each, sums each row over the 128 lanes, and
  builds one 1 × 128 row per statistic holding bin b's total in lane b (a chain of ten selects on the lane number,
  from a zero row). The three rows are the 1 × 3 × 128 block written back for the half. -/

/-- The lane number of each entry of a 1 × 128 row. -/
def iotaRow : IVec S1x128 32 := iota .tc S1x128 32 [1] iota_S1x128_d1_w32

/-- A row's sum over its lanes, spread over the 128 lanes. -/
def laneTot (row : Vec F S1x128 .f32) : FVec F S1x128 .f32 :=
  broadcastTo S1x128 (shapeCast S1x1 (shapeCast S1x1 (multiReduction .add [1] S1 row 0x00000000#32 reduces_S1x128_S1 (.inl rfl) rfl)
    shapeCasts_S1_S1x1) shapeCasts_S1x1_S1x1) broadcasts_S1x1_S1x128

/-- One link: lane `b` takes the row's total, the other lanes keep what they had. -/
def link (b : BitVec 32) (row : Vec F S1x128 .f32) (prev : FVec F S1x128 .f32) : FVec F S1x128 .f32 :=
  select (cmpi .eq iotaRow (broadcast S1x128 b)) (laneTot row) prev

/-- Rows 0 … 9 of a running array. -/
def row0 (S : Vec F S16x128 .f32) : Vec F S1x128 .f32 := fun j => S ((Rect.unit (s := S16x128) ![0, 0] S1x128.size inb_S16x128_S1x128_0_0).toLoadRect.idx j)
def row1 (S : Vec F S16x128 .f32) : Vec F S1x128 .f32 := fun j => S ((Rect.unit (s := S16x128) ![1, 0] S1x128.size inb_S16x128_S1x128_1_0).toLoadRect.idx j)
def row2 (S : Vec F S16x128 .f32) : Vec F S1x128 .f32 := fun j => S ((Rect.unit (s := S16x128) ![2, 0] S1x128.size inb_S16x128_S1x128_2_0).toLoadRect.idx j)
def row3 (S : Vec F S16x128 .f32) : Vec F S1x128 .f32 := fun j => S ((Rect.unit (s := S16x128) ![3, 0] S1x128.size inb_S16x128_S1x128_3_0).toLoadRect.idx j)
def row4 (S : Vec F S16x128 .f32) : Vec F S1x128 .f32 := fun j => S ((Rect.unit (s := S16x128) ![4, 0] S1x128.size inb_S16x128_S1x128_4_0).toLoadRect.idx j)
def row5 (S : Vec F S16x128 .f32) : Vec F S1x128 .f32 := fun j => S ((Rect.unit (s := S16x128) ![5, 0] S1x128.size inb_S16x128_S1x128_5_0).toLoadRect.idx j)
def row6 (S : Vec F S16x128 .f32) : Vec F S1x128 .f32 := fun j => S ((Rect.unit (s := S16x128) ![6, 0] S1x128.size inb_S16x128_S1x128_6_0).toLoadRect.idx j)
def row7 (S : Vec F S16x128 .f32) : Vec F S1x128 .f32 := fun j => S ((Rect.unit (s := S16x128) ![7, 0] S1x128.size inb_S16x128_S1x128_7_0).toLoadRect.idx j)
def row8 (S : Vec F S16x128 .f32) : Vec F S1x128 .f32 := fun j => S ((Rect.unit (s := S16x128) ![8, 0] S1x128.size inb_S16x128_S1x128_8_0).toLoadRect.idx j)
def row9 (S : Vec F S16x128 .f32) : Vec F S1x128 .f32 := fun j => S ((Rect.unit (s := S16x128) ![9, 0] S1x128.size inb_S16x128_S1x128_9_0).toLoadRect.idx j)

/-- Bin b's lane total in lane b, for b = 0 … 9; zero in the other lanes. -/
def totals (S : Vec F S16x128 .f32) : FVec F S1x128 .f32 :=
  link 9#32 (row9 S) (link 8#32 (row8 S) (link 7#32 (row7 S) (link 6#32 (row6 S) (link 5#32 (row5 S) (link 4#32 (row4 S) (link 3#32 (row3 S) (link 2#32 (row2 S) (link 1#32 (row1 S) (link 0#32 (row0 S) (zeroRow))))))))))

/-- The block a last step writes back, from the three updated running arrays. -/
def outBlock (S0 S1 S2 : Vec F S16x128 .f32) : FVec F S1x3x128 .f32 :=
  shapeCast S1x3x128 (concatenate S3x128 0 [⟨S1x128, totals S0⟩, ⟨S1x128, totals S1⟩, ⟨S1x128, totals S2⟩]
    concatenates_S1x128_S1x128_S1x128_S3x128_d0) shapeCasts_S3x128_S1x3x128

set_option maxHeartbeats 1600000 in
set_option maxHeartbeats 3200000 in
theorem last_out (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x3x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i)
    (x0 : Vec F S1x4096x128 .f32) (x1 : Vec F S1x4096x128 .i32) (xs0 xs1 xs2 : Vec F S16x128 .f32) :
    out0_C_2 c i arg2 harg2 arg3 harg3 arg4 harg4 arg5 harg5 arg6 harg6 arg7 harg7 hc0 hc1 x0 x1 xs0 xs1 xs2
      = outBlock (addf xs0 (stackCnt x0)) (addf xs1 (stackConf x0)) (addf xs2 (stackPos x0 x1)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  simp only [View.readCov_eq_canon', View.canon_unit_zero (S := S16x128) hz2]
  simp only [View.readAt_eq_ld]
  rw [harg2.read_unread, harg3.read_unread, harg5.read_unread, harg6.read_unread, harg7.read_unread]
  simp only [View.ld_unit_zero (S := S16x128) hz2, View.ld_unit_zero (S := S1x4096x128) hz3]
  unfold k0_pay93 k0_pay1 k0_pay91 k0_pay2 k0_pay92
  simp only [shapeCast_self]
  rfl

end Cert.KernelIdeal.Step

end
-- ==== Proof.BinAlgebra.lean ====
import Mathlib
import Idealize.ShloMosaic.PureOps.Ideal

/-!
Three facts about sums and bin indicators, none mentioning a program.

* `sum_flat`: a sum over the flat index set `Fin 33554432` is the four-fold nested sum over
  `2 × 32 × 4096 × 128`, the flat index being `((h·32 + s)·4096 + r)·128 + l`.
* `last_bin`: for a real-valued family over the extended reals whose bin words lie in `0..9`,
  the total minus the (left-nested) sum of the masked sums of bins `0..8` is the masked sum of
  bin `9`.  The cancellation is done in `ℝ`, where subtraction cancels, and transported along
  the coercion `ℝ → EReal`.
* `mask_apply`: the one-bit comparison word, zero-extended to 32 bits and read as a signed
  integer, is the indicator of equality.
-/

open scoped BigOperators

namespace Cert.BinAlgebra

/-! ### The flat index -/

theorem flat_lt (h : Fin 2) (s : Fin 32) (r : Fin 4096) (l : Fin 128) :
    ((h.val * 32 + s.val) * 4096 + r.val) * 128 + l.val < 33554432 := by
  have := h.isLt; have := s.isLt; have := r.isLt; have := l.isLt
  omega

/-- The flat index of the entry at half `h`, step `s`, row `r`, lane `l`. -/
def flat (h : Fin 2) (s : Fin 32) (r : Fin 4096) (l : Fin 128) : Fin 33554432 :=
  ⟨((h.val * 32 + s.val) * 4096 + r.val) * 128 + l.val, flat_lt h s r l⟩

theorem flat_val (h : Fin 2) (s : Fin 32) (r : Fin 4096) (l : Fin 128) :
    (flat h s r l).val = ((h.val * 32 + s.val) * 4096 + r.val) * 128 + l.val := rfl

/-- The mixed-radix bijection `2 × 32 × 4096 × 128 ≃ 33554432`; its inverse reads the four
    digits off by division and remainder. -/
def flatEquiv : (Fin 2 × Fin 32 × Fin 4096 × Fin 128) ≃ Fin 33554432 where
  toFun p := flat p.1 p.2.1 p.2.2.1 p.2.2.2
  invFun n :=
    (⟨n.val / 16777216, by have := n.isLt; omega⟩,
     ⟨n.val / 524288 % 32, by omega⟩,
     ⟨n.val / 128 % 4096, by omega⟩,
     ⟨n.val % 128, by omega⟩)
  left_inv := by
    rintro ⟨h, s, r, l⟩
    have := h.isLt; have := s.isLt; have := r.isLt; have := l.isLt
    refine Prod.ext (Fin.ext ?_) (Prod.ext (Fin.ext ?_) (Prod.ext (Fin.ext ?_) (Fin.ext ?_))) <;>
      simp only [flat_val] <;> omega
  right_inv := by
    intro n
    have := n.isLt
    refine Fin.ext ?_
    simp only [flat_val]
    omega

theorem sum_flat {M : Type*} [AddCommMonoid M] (f : Fin 33554432 → M) :
    (Finset.univ.sum f) =
      ∑ h : Fin 2, ∑ s : Fin 32, ∑ r : Fin 4096, ∑ l : Fin 128, f (flat h s r l) := by
  rw [← Equiv.sum_comp flatEquiv f, Fintype.sum_prod_type]
  refine Finset.sum_congr rfl (fun h _ => ?_)
  rw [Fintype.sum_prod_type]
  refine Finset.sum_congr rfl (fun s _ => ?_)
  rw [Fintype.sum_prod_type]
  rfl

open Idealize.ShloMosaic

/-! ### Bin indicators over the extended reals -/

/-- The indicator (as an extended real) that the bin word of `x` is the bin number `b`. -/
noncomputable def ind {ι : Type*} (k : ι → BitVec 32) (b : ℕ) (x : ι) : EReal :=
  if k x = BitVec.ofNat 32 b then 1 else 0

/-- A 32-bit word read as a signed integer is the small number `b` exactly when it is the
    word of `b`. -/
theorem toInt_eq_iff (w : BitVec 32) (b : ℕ) (hb : b ≤ 9) :
    w.toInt = (b : ℤ) ↔ w = BitVec.ofNat 32 b := by
  rw [← BitVec.toNat_inj, BitVec.toNat_ofNat, BitVec.toInt_eq_toNat_cond]
  have := w.isLt
  split <;> omega

theorem ind_eq_ite {ι : Type*} (k : ι → BitVec 32) (b : ℕ) (hb : b ≤ 9) (x : ι) (v : EReal) :
    v * ind k b x = if (k x).toInt = (b : ℤ) then v else 0 := by
  unfold ind
  by_cases h : k x = BitVec.ofNat 32 b
  · rw [if_pos h, if_pos ((toInt_eq_iff _ _ hb).mpr h), mul_one]
  · rw [if_neg h, if_neg (fun h' => h ((toInt_eq_iff _ _ hb).mp h')), mul_zero]

/-- The coercion `ℝ → EReal` commutes with finite sums. -/
theorem coe_sum {ι : Type*} (s : Finset ι) (r : ι → ℝ) :
    ((∑ x ∈ s, r x : ℝ) : EReal) = ∑ x ∈ s, (r x : EReal) := by
  classical
  induction s using Finset.induction_on with
  | empty => simp
  | insert a s ha ih => rw [Finset.sum_insert ha, Finset.sum_insert ha, EReal.coe_add, ih]

/-- The real-valued indicator of bin `b`. -/
noncomputable def indR {ι : Type*} (k : ι → BitVec 32) (b : ℕ) (x : ι) : ℝ :=
  if k x = BitVec.ofNat 32 b then 1 else 0

theorem ind_eq_coe {ι : Type*} (k : ι → BitVec 32) (b : ℕ) (x : ι) :
    ind k b x = ((indR k b x : ℝ) : EReal) := by
  unfold ind indR
  split
  · exact EReal.coe_one.symm
  · exact EReal.coe_zero.symm

/-- Each element lies in exactly one of the ten bins: the ten real indicators sum to one,
    weighted by any real. -/
theorem indR_partition {ι : Type*} (k : ι → BitVec 32)
    (hk : ∀ x, 0 ≤ (k x).toInt ∧ (k x).toInt ≤ 9) (r : ι → ℝ) (x : ι) :
    r x = r x * indR k 0 x + r x * indR k 1 x + r x * indR k 2 x + r x * indR k 3 x
        + r x * indR k 4 x + r x * indR k 5 x + r x * indR k 6 x + r x * indR k 7 x
        + r x * indR k 8 x + r x * indR k 9 x := by
  obtain ⟨h0, h9⟩ := hk x
  obtain ⟨b, hb, hkb⟩ : ∃ b : ℕ, b ≤ 9 ∧ k x = BitVec.ofNat 32 b := by
    refine ⟨(k x).toInt.toNat, by omega, ?_⟩
    rw [← toInt_eq_iff _ _ (by omega)]
    omega
  unfold indR
  rw [hkb]
  interval_cases b <;> simp

theorem last_bin {ι : Type*} [Fintype ι] (q : ι → EReal) (hq : ∀ x, ∃ r : ℝ, q x = (r : EReal))
    (k : ι → BitVec 32) (hk : ∀ x, 0 ≤ (k x).toInt ∧ (k x).toInt ≤ 9) :
    (∑ x, q x) - (0 + (∑ x, q x * ind k 0 x) + (∑ x, q x * ind k 1 x) + (∑ x, q x * ind k 2 x)
        + (∑ x, q x * ind k 3 x) + (∑ x, q x * ind k 4 x) + (∑ x, q x * ind k 5 x)
        + (∑ x, q x * ind k 6 x) + (∑ x, q x * ind k 7 x) + (∑ x, q x * ind k 8 x))
      = ∑ x, q x * ind k 9 x := by
  classical
  choose r hr using hq
  -- every masked sum, and the total, is the coercion of a real sum
  have hP : ∀ b, (∑ x, q x * ind k b x) = ((∑ x, r x * indR k b x : ℝ) : EReal) := by
    intro b
    rw [coe_sum]
    refine Finset.sum_congr rfl (fun x _ => ?_)
    rw [hr x, ind_eq_coe, EReal.coe_mul]
  have hT : (∑ x, q x) = ((∑ x, r x : ℝ) : EReal) := by
    rw [coe_sum]
    exact Finset.sum_congr rfl (fun x _ => hr x)
  -- over the reals the ten masked sums add up to the total
  have hsum : (∑ x, r x) = (∑ x, r x * indR k 0 x) + (∑ x, r x * indR k 1 x)
      + (∑ x, r x * indR k 2 x) + (∑ x, r x * indR k 3 x) + (∑ x, r x * indR k 4 x)
      + (∑ x, r x * indR k 5 x) + (∑ x, r x * indR k 6 x) + (∑ x, r x * indR k 7 x)
      + (∑ x, r x * indR k 8 x) + (∑ x, r x * indR k 9 x) := by
    simp only [← Finset.sum_add_distrib]
    exact Finset.sum_congr rfl (fun x _ => indR_partition k hk r x)
  rw [hT, hP 0, hP 1, hP 2, hP 3, hP 4, hP 5, hP 6, hP 7, hP 8, hP 9, ← EReal.coe_zero]
  simp only [← EReal.coe_add, ← EReal.coe_sub]
  rw [EReal.coe_eq_coe_iff]
  linarith

/-! ### The mask word as a number -/

/-- At the ideal instance an integer word converts to the real number it denotes when read
    signed. -/
theorem sitofp_ideal (b : BitVec 32) :
    (FloatOps.sitofp .f32 b : Ideal .f32) = ((b.toInt : ℝ) : EReal) := rfl

theorem mask_apply (w v : BitVec 32) :
    (FloatOps.sitofp .f32 ((IntOp.cmpi .eq w v).setWidth 32) : Ideal .f32) =
      if w = v then 1 else 0 := by
  rw [sitofp_ideal]
  by_cases h : w = v
  · have hb : (w == v) = true := by simpa using h
    simp [IntOp.cmpi, hb, h]
  · have hb : (w == v) = false := by simpa using h
    simp [IntOp.cmpi, hb, h]

end Cert.BinAlgebra
-- ==== Proof.StepAt.lean ====
/-
  One grid step, read entry by entry over the extended reals.

  At the ideal instance every array of Step is read at an index: a confidence, a bin word and a label at (row, lane)
  of the step's block; the 0/1 mask; a column sum as the sum over the 4096 rows; row b of a stack as bin b's column
  sums (b ≤ 8) or as the column total minus the sum of bins 0 … 8 (b = 9); a lane total as the sum over the 128 lanes;
  and the output block at (statistic, lane b ≤ 9) as the lane total of row b of that statistic's running array.
-/
import proofs.«180970_j44813688766553_2_alg».proof.Proof.Step
import proofs.«180970_j44813688766553_2_alg».proof.Proof.Bins
import proofs.«180970_j44813688766553_2_alg».proof.Proof.BinAlgebra
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open Idealize.ShloMosaic Idealize.ShloMosaic.TcCoe Idealize.SL.Sem Idealize.ShloMosaic.ValueIdx
open scoped BigOperators

namespace Cert.KernelIdeal.StepAt

open Cert.KernelIdeal Cert.KernelIdeal.Gen Cert.KernelIdeal.Step

/-! ## The block's entries -/

/-- The confidence at (row, lane) of the block is the logistic of the logit there. -/
theorem conf_at (x0 : Vec Ideal S1x4096x128 .f32) (r : Fin 4096) (l : Fin 128) :
    k0_pay47 (F := Ideal) x0 (ix2 r l) = Cert.Bins.conf (x0 (ix3 (0 : Fin 1) r l)) := by
  unfold k0_pay47
  show FloatOps.logistic (F := Ideal) (φ := .f32) (shapeCast S4096x128 x0 shapeCasts_S1x4096x128_S4096x128 (ix2 r l)) = _
  rw [shapeCast_1ab_ab_apply]
  rfl

/-- The bin word at (row, lane) is the bin of that confidence. -/
theorem bin_at (x0 : Vec Ideal S1x4096x128 .f32) (r : Fin 4096) (l : Fin 128) :
    k0_pay48 (F := Ideal) x0 (ix2 r l) = Cert.Bins.binWord (Cert.Bins.conf (x0 (ix3 (0 : Fin 1) r l))) := by
  unfold k0_pay48
  show IntOp.minsi 9#32 (IntOp.maxsi 0#32 (IntOp.subi (FloatOps.fptosi 32 (FloatOps.ceil
    (FloatOps.mulf (k0_pay47 (F := Ideal) x0 (ix2 r l)) (Scalar.ofBits .f32 0x41200000#32)))) 1#32)) = _
  rw [conf_at]
  rfl

/-- The label at (row, lane), as a number. -/
theorem lab_at (x1 : Vec Ideal S1x4096x128 .i32) (r : Fin 4096) (l : Fin 128) :
    k0_pay49 (F := Ideal) x1 (ix2 r l) = (FloatOps.sitofp .f32 (x1 (ix3 (0 : Fin 1) r l)) : Ideal .f32) := by
  unfold k0_pay49
  show FloatOps.sitofp .f32 (shapeCast S4096x128 x1 shapeCasts_S1x4096x128_S4096x128 (ix2 r l)) = _
  rw [shapeCast_1ab_ab_apply]

/-- The mask of bin word `b` at an entry: one where the entry's bin word is `b`, zero elsewhere. -/
theorem mask_at (k : IVec S4096x128 32) (b : BitVec 32) (r : Fin 4096) (l : Fin 128) :
    mask (F := Ideal) k b (ix2 r l) = if k (ix2 r l) = b then 1 else 0 :=
  Cert.BinAlgebra.mask_apply (k (ix2 r l)) b

/-! ## Sums down the rows and along the lanes -/

/-- A column sum at lane `l` is the sum of the column's 4096 entries. -/
theorem colSum_at (v : FVec Ideal S4096x128 .f32) (l : Fin 128) :
    colSum (F := Ideal) v (ix2 (0 : Fin 1) l) = ∑ r : Fin 4096, v (ix2 r l) := by
  unfold colSum
  rw [shapeCast_a_1a_apply]
  refine (Ideal.multiReduction_add_single v 0x00000000#32 reduces_S4096x128_S128 (.inl rfl) rfl (ix1 l)).trans ?_
  exact Finset.sum_congr rfl fun r _ => congrArg v (funext fun a => by
    match a with
    | ⟨0, _⟩ => rfl
    | ⟨1, _⟩ => rfl)

/-- A lane total, at any lane, is the sum of the row's 128 entries. -/
theorem laneTot_at (row : Vec Ideal S1x128 .f32) (l : Fin 128) :
    laneTot (F := Ideal) row (ix2 (0 : Fin 1) l) = ∑ q : Fin 128, row (ix2 (0 : Fin 1) q) := by
  unfold laneTot
  rw [broadcastTo_apply _ _ _ (ix2 (0 : Fin 1) (0 : Fin 1)) (fun a => by
    match a with
    | ⟨0, _⟩ => rfl
    | ⟨1, _⟩ => rfl)]
  rw [shapeCast_self, shapeCast_a_1a_apply]
  refine (Ideal.multiReduction_add_single row 0x00000000#32 reduces_S1x128_S1 (.inl rfl) rfl (ix1 (0 : Fin 1))).trans ?_
  exact Finset.sum_congr rfl fun q _ => congrArg row (funext fun a => by
    match a with
    | ⟨0, _⟩ => rfl
    | ⟨1, _⟩ => rfl)

/-! ## Rows of a running array and of a stack -/

theorem row0_at (S : Vec Ideal S16x128 .f32) (l : Fin 128) : row0 (F := Ideal) S (ix2 (0 : Fin 1) l) = S (ix2 (0 : Fin 16) l) := by
  unfold row0
  refine congrArg S (funext fun a => Fin.ext ?_)
  match a with
  | ⟨0, _⟩ => rfl
  | ⟨1, _⟩ => show 0 + 1 * l.val = l.val; omega
theorem row1_at (S : Vec Ideal S16x128 .f32) (l : Fin 128) : row1 (F := Ideal) S (ix2 (0 : Fin 1) l) = S (ix2 (1 : Fin 16) l) := by
  unfold row1
  refine congrArg S (funext fun a => Fin.ext ?_)
  match a with
  | ⟨0, _⟩ => rfl
  | ⟨1, _⟩ => show 0 + 1 * l.val = l.val; omega
theorem row2_at (S : Vec Ideal S16x128 .f32) (l : Fin 128) : row2 (F := Ideal) S (ix2 (0 : Fin 1) l) = S (ix2 (2 : Fin 16) l) := by
  unfold row2
  refine congrArg S (funext fun a => Fin.ext ?_)
  match a with
  | ⟨0, _⟩ => rfl
  | ⟨1, _⟩ => show 0 + 1 * l.val = l.val; omega
theorem row3_at (S : Vec Ideal S16x128 .f32) (l : Fin 128) : row3 (F := Ideal) S (ix2 (0 : Fin 1) l) = S (ix2 (3 : Fin 16) l) := by
  unfold row3
  refine congrArg S (funext fun a => Fin.ext ?_)
  match a with
  | ⟨0, _⟩ => rfl
  | ⟨1, _⟩ => show 0 + 1 * l.val = l.val; omega
theorem row4_at (S : Vec Ideal S16x128 .f32) (l : Fin 128) : row4 (F := Ideal) S (ix2 (0 : Fin 1) l) = S (ix2 (4 : Fin 16) l) := by
  unfold row4
  refine congrArg S (funext fun a => Fin.ext ?_)
  match a with
  | ⟨0, _⟩ => rfl
  | ⟨1, _⟩ => show 0 + 1 * l.val = l.val; omega
theorem row5_at (S : Vec Ideal S16x128 .f32) (l : Fin 128) : row5 (F := Ideal) S (ix2 (0 : Fin 1) l) = S (ix2 (5 : Fin 16) l) := by
  unfold row5
  refine congrArg S (funext fun a => Fin.ext ?_)
  match a with
  | ⟨0, _⟩ => rfl
  | ⟨1, _⟩ => show 0 + 1 * l.val = l.val; omega
theorem row6_at (S : Vec Ideal S16x128 .f32) (l : Fin 128) : row6 (F := Ideal) S (ix2 (0 : Fin 1) l) = S (ix2 (6 : Fin 16) l) := by
  unfold row6
  refine congrArg S (funext fun a => Fin.ext ?_)
  match a with
  | ⟨0, _⟩ => rfl
  | ⟨1, _⟩ => show 0 + 1 * l.val = l.val; omega
theorem row7_at (S : Vec Ideal S16x128 .f32) (l : Fin 128) : row7 (F := Ideal) S (ix2 (0 : Fin 1) l) = S (ix2 (7 : Fin 16) l) := by
  unfold row7
  refine congrArg S (funext fun a => Fin.ext ?_)
  match a with
  | ⟨0, _⟩ => rfl
  | ⟨1, _⟩ => show 0 + 1 * l.val = l.val; omega
theorem row8_at (S : Vec Ideal S16x128 .f32) (l : Fin 128) : row8 (F := Ideal) S (ix2 (0 : Fin 1) l) = S (ix2 (8 : Fin 16) l) := by
  unfold row8
  refine congrArg S (funext fun a => Fin.ext ?_)
  match a with
  | ⟨0, _⟩ => rfl
  | ⟨1, _⟩ => show 0 + 1 * l.val = l.val; omega
theorem row9_at (S : Vec Ideal S16x128 .f32) (l : Fin 128) : row9 (F := Ideal) S (ix2 (0 : Fin 1) l) = S (ix2 (9 : Fin 16) l) := by
  unfold row9
  refine congrArg S (funext fun a => Fin.ext ?_)
  match a with
  | ⟨0, _⟩ => rfl
  | ⟨1, _⟩ => show 0 + 1 * l.val = l.val; omega

theorem stack_row0 (tot : FVec Ideal S1x128 .f32) (r : BitVec 32 → FVec Ideal S1x128 .f32) (l : Fin 128) :
    stack (F := Ideal) tot r (ix2 (0 : Fin 16) l) = r 0#32 (ix2 (0 : Fin 1) l) := by
  unfold stack
  apply concatenate_apply_piece (t := S16x128) (a := (0 : Fin 2)) (k := 0) (pre := 0) (s₁ := S1x128) (i := ix2 (0 : Fin 1) l) (hr := (rfl : S1x128.rank = S16x128.rank))
  case hk => show 0 < 11; decide
  case hxk => rfl
  case hpre => rfl
  case hi =>
    intro a ha
    match a with
    | ⟨0, _⟩ => exact absurd rfl ha
    | ⟨1, _⟩ => rfl
  case ha => rfl
theorem stack_row1 (tot : FVec Ideal S1x128 .f32) (r : BitVec 32 → FVec Ideal S1x128 .f32) (l : Fin 128) :
    stack (F := Ideal) tot r (ix2 (1 : Fin 16) l) = r 1#32 (ix2 (0 : Fin 1) l) := by
  unfold stack
  apply concatenate_apply_piece (t := S16x128) (a := (0 : Fin 2)) (k := 1) (pre := 1) (s₁ := S1x128) (i := ix2 (0 : Fin 1) l) (hr := (rfl : S1x128.rank = S16x128.rank))
  case hk => show 1 < 11; decide
  case hxk => rfl
  case hpre => rfl
  case hi =>
    intro a ha
    match a with
    | ⟨0, _⟩ => exact absurd rfl ha
    | ⟨1, _⟩ => rfl
  case ha => rfl
theorem stack_row2 (tot : FVec Ideal S1x128 .f32) (r : BitVec 32 → FVec Ideal S1x128 .f32) (l : Fin 128) :
    stack (F := Ideal) tot r (ix2 (2 : Fin 16) l) = r 2#32 (ix2 (0 : Fin 1) l) := by
  unfold stack
  apply concatenate_apply_piece (t := S16x128) (a := (0 : Fin 2)) (k := 2) (pre := 2) (s₁ := S1x128) (i := ix2 (0 : Fin 1) l) (hr := (rfl : S1x128.rank = S16x128.rank))
  case hk => show 2 < 11; decide
  case hxk => rfl
  case hpre => rfl
  case hi =>
    intro a ha
    match a with
    | ⟨0, _⟩ => exact absurd rfl ha
    | ⟨1, _⟩ => rfl
  case ha => rfl
theorem stack_row3 (tot : FVec Ideal S1x128 .f32) (r : BitVec 32 → FVec Ideal S1x128 .f32) (l : Fin 128) :
    stack (F := Ideal) tot r (ix2 (3 : Fin 16) l) = r 3#32 (ix2 (0 : Fin 1) l) := by
  unfold stack
  apply concatenate_apply_piece (t := S16x128) (a := (0 : Fin 2)) (k := 3) (pre := 3) (s₁ := S1x128) (i := ix2 (0 : Fin 1) l) (hr := (rfl : S1x128.rank = S16x128.rank))
  case hk => show 3 < 11; decide
  case hxk => rfl
  case hpre => rfl
  case hi =>
    intro a ha
    match a with
    | ⟨0, _⟩ => exact absurd rfl ha
    | ⟨1, _⟩ => rfl
  case ha => rfl
theorem stack_row4 (tot : FVec Ideal S1x128 .f32) (r : BitVec 32 → FVec Ideal S1x128 .f32) (l : Fin 128) :
    stack (F := Ideal) tot r (ix2 (4 : Fin 16) l) = r 4#32 (ix2 (0 : Fin 1) l) := by
  unfold stack
  apply concatenate_apply_piece (t := S16x128) (a := (0 : Fin 2)) (k := 4) (pre := 4) (s₁ := S1x128) (i := ix2 (0 : Fin 1) l) (hr := (rfl : S1x128.rank = S16x128.rank))
  case hk => show 4 < 11; decide
  case hxk => rfl
  case hpre => rfl
  case hi =>
    intro a ha
    match a with
    | ⟨0, _⟩ => exact absurd rfl ha
    | ⟨1, _⟩ => rfl
  case ha => rfl
theorem stack_row5 (tot : FVec Ideal S1x128 .f32) (r : BitVec 32 → FVec Ideal S1x128 .f32) (l : Fin 128) :
    stack (F := Ideal) tot r (ix2 (5 : Fin 16) l) = r 5#32 (ix2 (0 : Fin 1) l) := by
  unfold stack
  apply concatenate_apply_piece (t := S16x128) (a := (0 : Fin 2)) (k := 5) (pre := 5) (s₁ := S1x128) (i := ix2 (0 : Fin 1) l) (hr := (rfl : S1x128.rank = S16x128.rank))
  case hk => show 5 < 11; decide
  case hxk => rfl
  case hpre => rfl
  case hi =>
    intro a ha
    match a with
    | ⟨0, _⟩ => exact absurd rfl ha
    | ⟨1, _⟩ => rfl
  case ha => rfl
theorem stack_row6 (tot : FVec Ideal S1x128 .f32) (r : BitVec 32 → FVec Ideal S1x128 .f32) (l : Fin 128) :
    stack (F := Ideal) tot r (ix2 (6 : Fin 16) l) = r 6#32 (ix2 (0 : Fin 1) l) := by
  unfold stack
  apply concatenate_apply_piece (t := S16x128) (a := (0 : Fin 2)) (k := 6) (pre := 6) (s₁ := S1x128) (i := ix2 (0 : Fin 1) l) (hr := (rfl : S1x128.rank = S16x128.rank))
  case hk => show 6 < 11; decide
  case hxk => rfl
  case hpre => rfl
  case hi =>
    intro a ha
    match a with
    | ⟨0, _⟩ => exact absurd rfl ha
    | ⟨1, _⟩ => rfl
  case ha => rfl
theorem stack_row7 (tot : FVec Ideal S1x128 .f32) (r : BitVec 32 → FVec Ideal S1x128 .f32) (l : Fin 128) :
    stack (F := Ideal) tot r (ix2 (7 : Fin 16) l) = r 7#32 (ix2 (0 : Fin 1) l) := by
  unfold stack
  apply concatenate_apply_piece (t := S16x128) (a := (0 : Fin 2)) (k := 7) (pre := 7) (s₁ := S1x128) (i := ix2 (0 : Fin 1) l) (hr := (rfl : S1x128.rank = S16x128.rank))
  case hk => show 7 < 11; decide
  case hxk => rfl
  case hpre => rfl
  case hi =>
    intro a ha
    match a with
    | ⟨0, _⟩ => exact absurd rfl ha
    | ⟨1, _⟩ => rfl
  case ha => rfl
theorem stack_row8 (tot : FVec Ideal S1x128 .f32) (r : BitVec 32 → FVec Ideal S1x128 .f32) (l : Fin 128) :
    stack (F := Ideal) tot r (ix2 (8 : Fin 16) l) = r 8#32 (ix2 (0 : Fin 1) l) := by
  unfold stack
  apply concatenate_apply_piece (t := S16x128) (a := (0 : Fin 2)) (k := 8) (pre := 8) (s₁ := S1x128) (i := ix2 (0 : Fin 1) l) (hr := (rfl : S1x128.rank = S16x128.rank))
  case hk => show 8 < 11; decide
  case hxk => rfl
  case hpre => rfl
  case hi =>
    intro a ha
    match a with
    | ⟨0, _⟩ => exact absurd rfl ha
    | ⟨1, _⟩ => rfl
  case ha => rfl
theorem stack_row9 (tot : FVec Ideal S1x128 .f32) (r : BitVec 32 → FVec Ideal S1x128 .f32) (l : Fin 128) :
    stack (F := Ideal) tot r (ix2 (9 : Fin 16) l) = lastRow tot r (ix2 (0 : Fin 1) l) := by
  unfold stack
  apply concatenate_apply_piece (t := S16x128) (a := (0 : Fin 2)) (k := 9) (pre := 9) (s₁ := S1x128) (i := ix2 (0 : Fin 1) l) (hr := (rfl : S1x128.rank = S16x128.rank))
  case hk => show 9 < 11; decide
  case hxk => rfl
  case hpre => rfl
  case hi =>
    intro a ha
    match a with
    | ⟨0, _⟩ => exact absurd rfl ha
    | ⟨1, _⟩ => rfl
  case ha => rfl

/-- Bin 9's row at a lane: the total there minus the rows of bins 0 … 8 added from zero in order. -/
theorem lastRow_at (tot : FVec Ideal S1x128 .f32) (r : BitVec 32 → FVec Ideal S1x128 .f32) (l : Fin 128) :
    lastRow (F := Ideal) tot r (ix2 (0 : Fin 1) l)
      = tot (ix2 (0 : Fin 1) l) - (0 + r 0#32 (ix2 (0 : Fin 1) l) + r 1#32 (ix2 (0 : Fin 1) l) + r 2#32 (ix2 (0 : Fin 1) l)
          + r 3#32 (ix2 (0 : Fin 1) l) + r 4#32 (ix2 (0 : Fin 1) l) + r 5#32 (ix2 (0 : Fin 1) l) + r 6#32 (ix2 (0 : Fin 1) l)
          + r 7#32 (ix2 (0 : Fin 1) l) + r 8#32 (ix2 (0 : Fin 1) l)) := by
  unfold lastRow zeroRow
  simp only [subf_apply, addf_apply, broadcast_apply]
  show _ - (Ideal.ofBits .f32 0x00000000#32 + _ + _ + _ + _ + _ + _ + _ + _ + _) = _
  rw [Ideal.ofBits_zero_f32]

/-! ## The output block -/

/-- The lane number at lane `l`. -/
theorem iotaRow_at (l : Fin 128) : iotaRow (ix2 (0 : Fin 1) l) = BitVec.ofNat 32 l.val := by
  unfold iotaRow
  rw [iota_single_apply]

/-- One link at a lane: the row's total at lane `b`, what was there before elsewhere. -/
theorem link_at (b : BitVec 32) (row : Vec Ideal S1x128 .f32) (prev : FVec Ideal S1x128 .f32) (l : Fin 128) :
    link (F := Ideal) b row prev (ix2 (0 : Fin 1) l)
      = if BitVec.ofNat 32 l.val = b then ∑ q : Fin 128, row (ix2 (0 : Fin 1) q) else prev (ix2 (0 : Fin 1) l) := by
  unfold link
  show Scalar.select (IntOp.cmpi .eq (iotaRow (ix2 (0 : Fin 1) l)) b) (laneTot row (ix2 (0 : Fin 1) l)) (prev (ix2 (0 : Fin 1) l)) = _
  rw [iotaRow_at, laneTot_at]
  by_cases h : BitVec.ofNat 32 l.val = b
  · rw [if_pos h, h]
    simp [Scalar.select, IntOp.cmpi]
  · rw [if_neg h]
    have hb : (BitVec.ofNat 32 l.val == b) = false := beq_eq_false_iff_ne.mpr h
    simp [Scalar.select, IntOp.cmpi, hb]

/-- Lane b ≤ 9 of the totals row is the lane total of row b of the running array. -/
theorem totals_at (S : Vec Ideal S16x128 .f32) (b : Fin 10) :
    totals (F := Ideal) S (ix2 (0 : Fin 1) (⟨b.val, by omega⟩ : Fin 128)) = ∑ q : Fin 128, S (ix2 (⟨b.val, by omega⟩ : Fin 16) q) := by
  unfold totals
  simp only [link_at]
  fin_cases b <;> simp (config := { decide := true }) only [row0_at, row1_at, row2_at, row3_at, row4_at, row5_at, row6_at, row7_at, row8_at, row9_at, if_true, if_false, ite_true, ite_false] <;> rfl

/-- The output block at (statistic j, lane b ≤ 9): the lane total of row b of statistic j's running array. -/
theorem outBlock_at (S0 S1 S2 : Vec Ideal S16x128 .f32) (j : Fin 3) (b : Fin 10) :
    outBlock (F := Ideal) S0 S1 S2 (ix3 (0 : Fin 1) j (⟨b.val, by omega⟩ : Fin 128))
      = ∑ q : Fin 128, (![S0, S1, S2] j) (ix2 (⟨b.val, by omega⟩ : Fin 16) q) := by
  unfold outBlock
  rw [shapeCast_ab_1ab_apply]
  fin_cases j
  · refine Eq.trans ?_ (totals_at S0 b)
    apply concatenate_apply_piece (t := S3x128) (a := (0 : Fin 2)) (k := 0) (pre := 0) (s₁ := S1x128) (i := ix2 (0 : Fin 1) (⟨b.val, by omega⟩ : Fin 128)) (hr := (rfl : S1x128.rank = S3x128.rank))
    case hk => show 0 < 3; decide
    case hxk => rfl
    case hpre => rfl
    case hi =>
      intro a ha
      match a with
      | ⟨0, _⟩ => exact absurd rfl ha
      | ⟨1, _⟩ => rfl
    case ha => rfl
  · refine Eq.trans ?_ (totals_at S1 b)
    apply concatenate_apply_piece (t := S3x128) (a := (0 : Fin 2)) (k := 1) (pre := 1) (s₁ := S1x128) (i := ix2 (0 : Fin 1) (⟨b.val, by omega⟩ : Fin 128)) (hr := (rfl : S1x128.rank = S3x128.rank))
    case hk => show 1 < 3; decide
    case hxk => rfl
    case hpre => rfl
    case hi =>
      intro a ha
      match a with
      | ⟨0, _⟩ => exact absurd rfl ha
      | ⟨1, _⟩ => rfl
    case ha => rfl
  · refine Eq.trans ?_ (totals_at S2 b)
    apply concatenate_apply_piece (t := S3x128) (a := (0 : Fin 2)) (k := 2) (pre := 2) (s₁ := S1x128) (i := ix2 (0 : Fin 1) (⟨b.val, by omega⟩ : Fin 128)) (hr := (rfl : S1x128.rank = S3x128.rank))
    case hk => show 2 < 3; decide
    case hxk => rfl
    case hpre => rfl
    case hi =>
      intro a ha
      match a with
      | ⟨0, _⟩ => exact absurd rfl ha
      | ⟨1, _⟩ => rfl
    case ha => rfl

end Cert.KernelIdeal.StepAt

end
-- ==== Proof.Running.lean ====
/-
  The three running arrays along the grid.

  The grid's 64 points are taken in order: point n is step n mod 32 of half n / 32. After point n each running
  array holds: at a first step of a half, its stack added to the zero array; otherwise, its stack added to what the
  point before left. At a last step of a half the block written back is built from the three arrays as just
  updated. This is the frame's point-by-point record of the kernel's outputs, with each case's contents replaced
  by the closed forms of Step.
-/
import proofs.«180970_j44813688766553_2_alg».proof.Proof.Gen.KernelIdeal.Frame
import Idealize.ShloMosaic.Lib.Pipeline.Value
import Idealize.ShloMosaic.Lib.Tactic
import proofs.«180970_j44813688766553_2_alg».proof.Proof.Step
set_option maxRecDepth 16384

noncomputable section

open Idealize.ShloMosaic Idealize.ShloMosaic.TcCoe Idealize.ShloMosaic.Tactic Idealize.SL.Sem

namespace Cert.KernelIdeal.Running

open Cert.KernelIdeal Cert.KernelIdeal.Gen

variable {F : FTy → Type} [FloatOps F]

open Cert.KernelIdeal.Step

variable (m : (ℓ : Loc nD τ sig) → Buf (Elt F) ℓ)

theorem N64 : cfg0.N = 64 := N_0

/-- The logits block and the labels block of point `n` (of the first point, beyond the grid). -/
def blk0 (c : Dev nD) (n : ℕ) : Vec F S1x4096x128 .f32 :=
  if h : n < cfg0.N then (iblk m c 0 ⟨n, h⟩ : Vec F S1x4096x128 .f32) else (iblk m c 0 ⟨0, by rw [N64]; decide⟩ : Vec F S1x4096x128 .f32)
def blk1 (c : Dev nD) (n : ℕ) : Vec F S1x4096x128 .i32 :=
  if h : n < cfg0.N then (iblk m c 1 ⟨n, h⟩ : Vec F S1x4096x128 .i32) else (iblk m c 1 ⟨0, by rw [N64]; decide⟩ : Vec F S1x4096x128 .i32)

theorem blk0_of_lt (c : Dev nD) (n : ℕ) (h : n < cfg0.N) : blk0 m c n = (iblk m c 0 ⟨n, h⟩ : Vec F S1x4096x128 .f32) := dif_pos h
theorem blk1_of_lt (c : Dev nD) (n : ℕ) (h : n < cfg0.N) : blk1 m c n = (iblk m c 1 ⟨n, h⟩ : Vec F S1x4096x128 .i32) := dif_pos h

/-- The three running arrays after point `n`: counts, confidences, labels. -/
def acc (c : Dev nD) : ℕ → FVec F S16x128 .f32 × FVec F S16x128 .f32 × FVec F S16x128 .f32
  | 0 => (addf (k0_pay44 (F := F)) (stackCnt (blk0 m c 0)), addf (k0_pay45 (F := F)) (stackConf (blk0 m c 0)),
          addf (k0_pay46 (F := F)) (stackPos (blk0 m c 0) (blk1 m c 0)))
  | n + 1 =>
    if (n + 1) % 32 = 0 then
      (addf (k0_pay44 (F := F)) (stackCnt (blk0 m c (n + 1))), addf (k0_pay45 (F := F)) (stackConf (blk0 m c (n + 1))),
        addf (k0_pay46 (F := F)) (stackPos (blk0 m c (n + 1)) (blk1 m c (n + 1))))
    else
      (addf (acc c n).1 (stackCnt (blk0 m c (n + 1))), addf (acc c n).2.1 (stackConf (blk0 m c (n + 1))),
        addf (acc c n).2.2 (stackPos (blk0 m c (n + 1)) (blk1 m c (n + 1))))

theorem acc_first (c : Dev nD) (n : ℕ) (h0 : n % 32 = 0) :
    acc m c n = (addf (k0_pay44 (F := F)) (stackCnt (blk0 m c n)), addf (k0_pay45 (F := F)) (stackConf (blk0 m c n)),
      addf (k0_pay46 (F := F)) (stackPos (blk0 m c n) (blk1 m c n))) := by
  cases n with
  | zero => rfl
  | succ n => exact if_pos h0

theorem acc_next (c : Dev nD) (n : ℕ) (h0 : ¬(n + 1) % 32 = 0) :
    acc m c (n + 1) = (addf (acc m c n).1 (stackCnt (blk0 m c (n + 1))), addf (acc m c n).2.1 (stackConf (blk0 m c (n + 1))),
      addf (acc m c n).2.2 (stackPos (blk0 m c (n + 1)) (blk1 m c (n + 1)))) := if_neg h0

/-- What the frame records in the three carried arrays after point `n` is `acc`. -/
theorem scratch_eq (c : Dev nD) : ∀ (n : ℕ) (h : n < cfg0.N), (outsAt0 m c n h).2 = acc m c n
  | 0, h => by
    rw [show outsAt0 m c 0 h = _ from outsAt0_A m c ⟨0, h⟩ rfl (by show ¬(0 : ℕ) % 32 = 31; decide)]
    dsimp only
    rw [first_cnt, first_conf, first_pos, acc_first m c 0 rfl, blk0_of_lt m c 0 h, blk1_of_lt m c 0 h]
  | n + 1, h => by
    have ih := scratch_eq c n (Nat.lt_of_succ_lt h)
    by_cases h0 : (n + 1) % 32 = 0
    · have h1 : ¬(n + 1) % 32 = 31 := by omega
      rw [show outsAt0 m c (n + 1) h = _ from outsAt0_A m c ⟨n + 1, h⟩ h0 h1]
      dsimp only
      rw [first_cnt, first_conf, first_pos, acc_first m c (n + 1) h0, blk0_of_lt m c (n + 1) h, blk1_of_lt m c (n + 1) h]
    · by_cases h1 : (n + 1) % 32 = 31
      · rw [show outsAt0 m c (n + 1) h = _ from outsAt0_C m c ⟨n + 1, h⟩ h0 h1]
        dsimp only
        rw [last_cnt, last_conf, last_pos, acc_next m c n h0, blk0_of_lt m c (n + 1) h, blk1_of_lt m c (n + 1) h]
        show (addf (outsAt0 m c n _).2.1 _, addf (outsAt0 m c n _).2.2.1 _, addf (outsAt0 m c n _).2.2.2 _) = _
        rw [ih]
      · rw [show outsAt0 m c (n + 1) h = _ from outsAt0_B m c ⟨n + 1, h⟩ h0 h1]
        dsimp only
        rw [mid_cnt, mid_conf, mid_pos, acc_next m c n h0, blk0_of_lt m c (n + 1) h, blk1_of_lt m c (n + 1) h]
        show (addf (outsAt0 m c n _).2.1 _, addf (outsAt0 m c n _).2.2.1 _, addf (outsAt0 m c n _).2.2.2 _) = _
        rw [ih]

/-- The block a last step of a half writes back: built from the three running arrays after that point. -/
theorem out_eq (c : Dev nD) (t : Fin cfg0.N) (h1 : t.val % 32 = 31) :
    (outsAt0 m c t.val t.isLt).1 = outBlock (acc m c t.val).1 (acc m c t.val).2.1 (acc m c t.val).2.2 := by
  obtain ⟨n, h⟩ := t
  cases n with
  | zero => exact absurd h1 (by show ¬(0 : ℕ) % 32 = 31; decide)
  | succ n =>
    have h0 : ¬(n + 1) % 32 = 0 := by dsimp only at h1; omega
    have ih := scratch_eq m c n (Nat.lt_of_succ_lt h)
    rw [show outsAt0 m c (n + 1) h = _ from outsAt0_C m c ⟨n + 1, h⟩ h0 h1]
    dsimp only
    rw [last_out, acc_next m c n h0, blk0_of_lt m c (n + 1) h, blk1_of_lt m c (n + 1) h]
    show outBlock (addf (outsAt0 m c n _).2.1 _) (addf (outsAt0 m c n _).2.2.1 _) (addf (outsAt0 m c n _).2.2.2 _) = _
    rw [ih]

end Cert.KernelIdeal.Running

end
-- ==== Proof.Halves.lean ====
/-
  The region's result array.

  The 2 × 3 × 128 result of the region has one 1 × 3 × 128 block per half, written back once, by the half's last
  step (point 32 h + 31). So the array after the run is one function of the argument arrays: at (h, j, l) it is
  the output block built from the three running arrays after point 32 h + 31, at (j, l). The write-back of a
  flushing point is its block of that function, and the two flushing points' blocks cover the array.
-/
import proofs.«180970_j44813688766553_2_alg».proof.Proof.Gen.KernelIdeal.Frame
import Idealize.ShloMosaic.Lib.Pipeline.Value
import Idealize.ShloMosaic.Lib.Tactic
import proofs.«180970_j44813688766553_2_alg».proof.Proof.Running
import Idealize.ShloMosaic.Lib.ValueIdx
set_option maxRecDepth 16384

noncomputable section

open Idealize.ShloMosaic Idealize.ShloMosaic.TcCoe Idealize.ShloMosaic.Tactic Idealize.SL.Sem

namespace Cert.KernelIdeal.Halves

open Cert.KernelIdeal Cert.KernelIdeal.Gen

variable {F : FTy → Type} [FloatOps F]

open Cert.KernelIdeal.Step Cert.KernelIdeal.Running Idealize.ShloMosaic.ValueIdx
open Idealize.ShloMosaic.Pipeline (Dat)

variable (m : (ℓ : Loc nD τ sig) → Buf (Elt F) ℓ) (ρ : Dev nD → PrngReg)

/-- The result array of the region: half `h` holds the block its last step wrote. -/
def outArr (c : Dev nD) : Buf (Elt F) ((c : Thread nD τ).loc main_v2) :=
  fun i => outBlock (acc m c (32 * (i 0).val + 31)).1 (acc m c (32 * (i 0).val + 31)).2.1 (acc m c (32 * (i 0).val + 31)).2.2
    (ix3 (0 : Fin 1) (⟨(i 1).val, (i 1).isLt⟩ : Fin 3) (⟨(i 2).val, (i 2).isLt⟩ : Fin 128))

/-- The output window's block index at point t is (t / 32, 0, 0) — decided over the grid. -/
theorem outIndex : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- Its blocks are whole 1 × 3 × 128 blocks at every point. -/
theorem outExtent : ∀ t : Fin cfg0.N, win0_2.xsize (grid0.coords t) 0 = 1 ∧ win0_2.xsize (grid0.coords t) 1 = 3 ∧ win0_2.xsize (grid0.coords t) 2 = 128 :=
  (by decide +kernel : ∀ t : Fin grid0.N, win0_2.xsize (grid0.coords t) 0 = 1 ∧ win0_2.xsize (grid0.coords t) 1 = 3 ∧ win0_2.xsize (grid0.coords t) 2 = 128)

/-- What a flushing point writes back is its block of `outArr`. -/
theorem flushed_eq (c : Dev nD) (t : Fin cfg0.N) (hf : (cfg0.win 2).flush t = true) :
    (dats m 0 c).flushed 2 t = ((cfg0.win 2).blk t).view.read (Elt F) (outArr m c) := by
  have h31 : t.val % 32 = 31 := (flush0_2 t).mp hf
  have hi := outIndex t
  show (cfg0.win 2).cut (grid0.coords t) ((dats m 0 c).after 2 t) = _
  rw [after0_2, out_eq m c t h31]
  funext y
  rw [View.read_apply]
  show outBlock _ _ _ y = outArr m c _
  unfold outArr
  have hy0 : (y 0).val < win0_2.xsize (grid0.coords t) 0 := (y 0).isLt
  rw [(outExtent t).1] at hy0
  have e0 : ∀ i' : S2x3x128.Idx, (i' 0).val = win0_2.index t 0 * 1 + 1 * (y 0).val → 32 * (i' 0).val + 31 = t.val := by
    intro i' h; rw [h, hi.1]; omega
  rw [e0 _ rfl]
  refine congrArg _ (funext fun a => Fin.ext ?_)
  match a with
  | ⟨0, _⟩ => show (y 0).val = 0; omega
  | ⟨1, _⟩ => show (y 1).val = win0_2.index t 1 * 3 + 1 * (y 1).val; rw [hi.2.1]; omega
  | ⟨2, _⟩ => show (y 2).val = win0_2.index t 2 * 128 + 1 * (y 2).val; rw [hi.2.2]; omega

/-- So the result array ends holding `outArr`: the two halves' last steps cover it. -/
theorem final_out (c : Dev nD) : (dats m 0 c).arrAt 2 cfg0.N = outArr m c :=
  (dats m 0 c).arrAt_eq_of_cover 2 (outArr m c) (flushed_eq m c) fun i => by
    have h0 : (i 0 : Nat) < 2 := (i 0).isLt
    have h1 : (i 1 : Nat) < 3 := (i 1).isLt
    have h2 : (i 2 : Nat) < 128 := (i 2).isLt
    have hN : cfg0.N = 64 := N64
    obtain ⟨t, ht⟩ : ∃ t : Fin cfg0.N, t.val = 32 * (i 0).val + 31 := ⟨⟨32 * (i 0).val + 31, by omega⟩, rfl⟩
    refine ⟨t, (flush0_2 t).mpr (by rw [ht]; omega), ?_⟩
    have hi := outIndex t
    have hx := outExtent t
    show i ∈ ((View.whole main_v2).slice (win0_2.rect t)).set
    rw [View.set_slice_whole, Rect.mem_set_unit]
    intro a
    match a with
    | ⟨0, _⟩ =>
      show win0_2.index t 0 * win0_2.size 0 ≤ (i 0 : Nat) ∧ (i 0 : Nat) < win0_2.index t 0 * win0_2.size 0 + win0_2.xsize (grid0.coords t) 0
      rw [hi.1, hx.1, ht]; show (32 * (i 0).val + 31) / 32 * 1 ≤ _ ∧ _ < (32 * (i 0).val + 31) / 32 * 1 + 1; omega
    | ⟨1, _⟩ =>
      show win0_2.index t 1 * win0_2.size 1 ≤ (i 1 : Nat) ∧ (i 1 : Nat) < win0_2.index t 1 * win0_2.size 1 + win0_2.xsize (grid0.coords t) 1
      rw [hi.2.1, hx.2.1]; omega
    | ⟨2, _⟩ =>
      show win0_2.index t 2 * win0_2.size 2 ≤ (i 2 : Nat) ∧ (i 2 : Nat) < win0_2.index t 2 * win0_2.size 2 + win0_2.xsize (grid0.coords t) 2
      rw [hi.2.2, hx.2.2]; omega

end Cert.KernelIdeal.Halves

end
-- ==== Proof.Inputs.lean ====
/-
  The blocks the steps read, in terms of the flat argument arrays.

  Before the region the two flat arrays of 2^25 entries are recast as 2 × 131072 × 128. Point n of the grid
  (half n / 32, step n mod 32) reads the 1 × 4096 × 128 block at block index (n / 32, n mod 32, 0) of each. So
  entry (0, r, l) of point n's block is the flat entry ((h · 32 + s) · 4096 + r) · 128 + l with h = n / 32 and
  s = n mod 32.
-/
import proofs.«180970_j44813688766553_2_alg».proof.Proof.Gen.KernelIdeal.Frame
import Idealize.ShloMosaic.Lib.Pipeline.Value
import Idealize.ShloMosaic.Lib.Tactic
import proofs.«180970_j44813688766553_2_alg».proof.Proof.Running
import proofs.«180970_j44813688766553_2_alg».proof.Proof.BinAlgebra
import Idealize.ShloMosaic.Lib.ValueIdx
import Idealize.ShloMosaic.Lib.StableHlo.Run
set_option maxRecDepth 16384

noncomputable section

open Idealize.ShloMosaic Idealize.ShloMosaic.TcCoe Idealize.ShloMosaic.Tactic Idealize.SL.Sem

namespace Cert.KernelIdeal.Inputs

open Cert.KernelIdeal Cert.KernelIdeal.Gen

variable {F : FTy → Type} [FloatOps F]

open Cert.KernelIdeal.Running Idealize.ShloMosaic.ValueIdx Cert.BinAlgebra

variable (m : (ℓ : Loc nD τ sig) → Buf (Elt F) ℓ)

/-- The logits as the region finds them: the flat array recast. -/
theorem V_logits (c : Dev nD) :
    (V m c main_v0 : S2x131072x128.Idx → Elt F .f32)
      = shapeCast S2x131072x128 (m ((c : Thread nD τ).loc main_arg0)) shapeCasts_S33554432_S2x131072x128 := by
  dsimp only [Gen.V, Gen.V0]
  simp only [hostOps0, List.flatten_cons, List.flatten_nil, List.append_nil, List.cons_append, List.nil_append]
  after_results
  rfl

/-- The labels as the region finds them: the flat array recast. -/
theorem V_labels (c : Dev nD) :
    (V m c main_v1 : S2x131072x128.Idx → Elt F .i32)
      = shapeCast S2x131072x128 (m ((c : Thread nD τ).loc main_arg1)) shapeCasts_S33554432_S2x131072x128 := by
  dsimp only [Gen.V, Gen.V0]
  simp only [hostOps0, List.flatten_cons, List.flatten_nil, List.append_nil, List.cons_append, List.nil_append]
  after_results
  rfl

/-- Both input windows' block index at point t is (t / 32, t mod 32, 0) — decided over the grid. -/
theorem inIndex0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)
theorem inIndex1 : ∀ t : Fin cfg0.N, win0_1.index t 0 = t.val / 32 ∧ win0_1.index t 1 = t.val % 32 ∧ win0_1.index t 2 = 0 :=
  (by decide +kernel : ∀ t : Fin grid0.N, win0_1.index t 0 = t.val / 32 ∧ win0_1.index t 1 = t.val % 32 ∧ win0_1.index t 2 = 0)

/-- The recast array at (h', row, l) is the flat array at (h' · 131072 + row) · 128 + l. -/
theorem recast_at {α : Type} (x : S33554432.Idx → α) (i : S2x131072x128.Idx) (e : Fin 33554432)
    (he : e.val = ((i 0).val * 131072 + (i 1).val) * 128 + (i 2).val) :
    shapeCast S2x131072x128 x shapeCasts_S33554432_S2x131072x128 i = x (ix1 e) :=
  shapeCast_apply x _ i (ix1 e) (by
    rw [Shape.rowMajor_val_three, Shape.rowMajor_val_one]
    exact he)

/-- Entry (0, r, l) of the logits block of half h, step s. -/
theorem logits_at (c : Dev nD) (h : Fin 2) (s : Fin 32) (r : Fin 4096) (l : Fin 128) :
    blk0 m c (32 * h.val + s.val) (ix3 (0 : Fin 1) r l) = m ((c : Thread nD τ).loc main_arg0) (ix1 (flat h s r l)) := by
  have hN : cfg0.N = 64 := N64
  have hlt : 32 * h.val + s.val < cfg0.N := by have := h.isLt; have := s.isLt; omega
  have hi := inIndex0 ⟨32 * h.val + s.val, hlt⟩
  rw [blk0_of_lt m c _ hlt]
  unfold iblk
  rw [View.read_apply]
  show V m c main_v0 _ = _
  rw [V_logits]
  refine recast_at _ _ (flat h s r l) ?_
  rw [flat_val]
  show _ = ((win0_0.index _ 0 * 1 + 1 * 0) * 131072 + (win0_0.index _ 1 * 4096 + 1 * r.val)) * 128 + (win0_0.index _ 2 * 128 + 1 * l.val)
  rw [hi.1, hi.2.1, hi.2.2]
  have := h.isLt; have := s.isLt
  show _ = (((32 * h.val + s.val) / 32 * 1 + 1 * 0) * 131072 + ((32 * h.val + s.val) % 32 * 4096 + 1 * r.val)) * 128 + (0 * 128 + 1 * l.val)
  omega

/-- Entry (0, r, l) of the labels block of half h, step s. -/
theorem labels_at (c : Dev nD) (h : Fin 2) (s : Fin 32) (r : Fin 4096) (l : Fin 128) :
    blk1 m c (32 * h.val + s.val) (ix3 (0 : Fin 1) r l) = m ((c : Thread nD τ).loc main_arg1) (ix1 (flat h s r l)) := by
  have hN : cfg0.N = 64 := N64
  have hlt : 32 * h.val + s.val < cfg0.N := by have := h.isLt; have := s.isLt; omega
  have hi := inIndex1 ⟨32 * h.val + s.val, hlt⟩
  rw [blk1_of_lt m c _ hlt]
  unfold iblk
  rw [View.read_apply]
  show V m c main_v1 _ = _
  rw [V_labels]
  refine recast_at _ _ (flat h s r l) ?_
  rw [flat_val]
  show _ = ((win0_1.index _ 0 * 1 + 1 * 0) * 131072 + (win0_1.index _ 1 * 4096 + 1 * r.val)) * 128 + (win0_1.index _ 2 * 128 + 1 * l.val)
  rw [hi.1, hi.2.1, hi.2.2]
  have := h.isLt; have := s.isLt
  show _ = (((32 * h.val + s.val) / 32 * 1 + 1 * 0) * 131072 + ((32 * h.val + s.val) % 32 * 4096 + 1 * r.val)) * 128 + (0 * 128 + 1 * l.val)
  omega

end Cert.KernelIdeal.Inputs

end
-- ==== Proof.BinTotals.lean ====
import proofs.«180970_j44813688766553_2_alg».proof.Proof.Bins
import proofs.«180970_j44813688766553_2_alg».proof.Proof.BinAlgebra

/-!
Facts that connect the bin word, the confidences and the labels to the sum algebra.

* `binWord_range`: a bin word, being clipped below by `0` and above by `9`, reads as a signed
  integer in `0..9`.
* `conf_real`, `lab_real`: the confidence of a real logit, and a label read as a number, are
  real (neither `⊥` nor `⊤`).
* `total_eq`, `total_eq'`: the masked sum nested as halves, lanes, steps, rows is the flat sum
  over the entries of the bin; sums commute, and the nested index set is the flat one.
* `word_4096`, `one_real`, `one_mul_ind`: the word of `4096.0` is a sum of `4096` ones; one is real;
  a bare indicator is one times the indicator.
-/

open scoped BigOperators

namespace Cert.BinTotals

open Idealize.ShloMosaic Cert.BinAlgebra Cert.Bins

/-! ### The bin word lies in `0..9` -/

/-- Clipping a signed word below by `0` and above by `9` lands in `0..9`. -/
theorem clip_range (w : BitVec 32) :
    0 ≤ (IntOp.minsi 9#32 (IntOp.maxsi 0#32 w)).toInt ∧
      (IntOp.minsi 9#32 (IntOp.maxsi 0#32 w)).toInt ≤ 9 := by
  have h9 : (9#32 : BitVec 32).toInt = 9 := by decide
  have h0 : (0#32 : BitVec 32).toInt = 0 := by decide
  simp only [IntOp.minsi, IntOp.maxsi, BitVec.slt, decide_eq_true_eq, h0]
  by_cases h1 : w.toInt < 0
  · rw [if_pos h1]
    simp only [h0, h9]
    norm_num
  · rw [if_neg h1]
    by_cases h2 : (9#32 : BitVec 32).toInt < w.toInt
    · rw [if_pos h2]; omega
    · rw [if_neg h2]; omega

theorem binWord_range (c : Ideal .f32) :
    0 ≤ (Cert.Bins.binWord c).toInt ∧ (Cert.Bins.binWord c).toInt ≤ 9 :=
  clip_range _

/-! ### Confidences and labels are real -/

theorem conf_real (r : ℝ) : ∃ v : ℝ, Cert.Bins.conf ((r : ℝ) : EReal) = (v : EReal) :=
  ⟨(1 + Real.exp (-r))⁻¹, by rw [Cert.Bins.conf, Ideal.logistic_def, Ideal.logistic_coe]⟩

theorem lab_real (w : BitVec 32) :
    ∃ v : ℝ, (FloatOps.sitofp .f32 w : Ideal .f32) = (v : EReal) :=
  ⟨(w.toInt : ℝ), sitofp_ideal w⟩

/-! ### Re-ordering the nested masked sum into the flat one -/

/-- The masked sum over halves, lanes, steps and rows (lanes outside steps) is the flat sum
    over the entries of bin `b`. -/
theorem total_eq (Q : Fin 33554432 → EReal) (K : Fin 33554432 → BitVec 32) (b : ℕ) (hb : b ≤ 9) :
    (∑ h : Fin 2, ∑ l : Fin 128, ∑ s : Fin 32, ∑ r : Fin 4096,
        Q (flat h s r l) * ind (fun r' : Fin 4096 => K (flat h s r' l)) b r)
      = ∑ e : Fin 33554432, if (K e).toInt = (b : ℤ) then Q e else 0 := by
  simp only [ind_eq_ite _ _ hb]
  rw [sum_flat (fun e => if (K e).toInt = (b : ℤ) then Q e else 0)]
  refine Finset.sum_congr rfl (fun h _ => ?_)
  refine Finset.sum_comm.trans ?_
  refine Finset.sum_congr rfl (fun s _ => ?_)
  exact Finset.sum_comm

/-- A sum over `range n` of a family defined only below `n` is the sum over `Fin n`. -/
theorem sum_range_dite {M : Type*} [AddCommMonoid M] (n : ℕ) (F : Fin n → M) :
    (∑ s ∈ Finset.range n, (if hs : s < n then F ⟨s, hs⟩ else 0)) = ∑ s : Fin n, F s := by
  rw [Finset.sum_range]
  refine Finset.sum_congr rfl (fun s _ => ?_)
  rw [dif_pos s.isLt]

/-- The same with a leading zero and the steps summed over `range 32`. -/
theorem total_eq' (Q : Fin 33554432 → EReal) (K : Fin 33554432 → BitVec 32) (b : ℕ) (hb : b ≤ 9) :
    (0 + ∑ h : Fin 2, ∑ l : Fin 128, ∑ s ∈ Finset.range 32,
        (if hs : s < 32 then ∑ r : Fin 4096,
            Q (flat h ⟨s, hs⟩ r l) * ind (fun r' : Fin 4096 => K (flat h ⟨s, hs⟩ r' l)) b r
          else 0))
      = ∑ e : Fin 33554432, if (K e).toInt = (b : ℤ) then Q e else 0 := by
  rw [zero_add, ← total_eq Q K b hb]
  refine Finset.sum_congr rfl (fun h _ => Finset.sum_congr rfl (fun l _ => ?_))
  exact sum_range_dite 32
    (fun s => ∑ r : Fin 4096, Q (flat h s r l) * ind (fun r' : Fin 4096 => K (flat h s r' l)) b r)

/-! ### Two numeric facts -/

/-- The single-precision word of `4096.0` denotes the sum of `4096` ones. -/
theorem word_4096 : Ideal.ofBits .f32 0x45800000#32 = ∑ _r : Fin 4096, (1 : EReal) := by
  have hL : Ideal.ofBits .f32 0x45800000#32 = ((4096 : ℝ) : EReal) := by
    simp [Ideal.ofBits, Ideal.ieee, -EReal.coe_mul]; norm_num
  have hR : (∑ _r : Fin 4096, (1 : EReal)) = ((4096 : ℝ) : EReal) := by
    have h : (∑ _r : Fin 4096, (1 : ℝ)) = 4096 := by
      rw [Finset.sum_const, Finset.card_univ, Fintype.card_fin, nsmul_eq_mul, mul_one]
      norm_num
    rw [← h, coe_sum]
    simp only [EReal.coe_one]
  rw [hL, hR]

theorem one_real : ∃ v : ℝ, (1 : EReal) = (v : EReal) := ⟨1, EReal.coe_one.symm⟩

theorem one_mul_ind {ι : Type*} (k : ι → BitVec 32) (b : ℕ) (x : ι) :
    (if k x = BitVec.ofNat 32 b then (1 : EReal) else 0) = 1 * ind k b x := by
  unfold ind
  rw [one_mul]

end Cert.BinTotals
-- ==== Proof.Tail.lean ====
/-
  The host operations after the region.

  After the region the program sums the 2 × 3 × 128 array over its two halves (from zero), takes the first ten
  lanes of each of the three rows (counts, confidences, labels), and forms the two rows of guarded means. Read off
  the frame run, the result buffer is therefore the specification's means of those three ten-entry vectors of the
  region's final array.
-/
import proofs.«180970_j44813688766553_2_alg».proof.Proof.Gen.KernelIdeal.Frame
import proofs.«180970_j44813688766553_2_alg».proof.Proof.Bins
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem

namespace Cert.KernelIdeal.Tail

open Cert.KernelIdeal Cert.KernelIdeal.Gen

variable (m : (ℓ : Loc nD τ sig) → Buf (Elt Ideal) ℓ)

/-- The first ten lanes of row `off 0` of the sum of the two halves (from zero). -/
def stat (A : FVec Ideal S2x3x128 .f32) (off : Fin 2 → Nat) (h : S3x128.Slices off S1x10) : FVec Ideal S10 .f32 :=
  shapeCast S10 (extractStridedSlice S1x10 off
    (Host.reduceAdd (F := Ideal) A (constant (F := Ideal) S_ .f32 0x00000000#32) reducesTo_S2x3x128_S3x128_d0 h_S_) h) shapeCasts_S1x10_S10

set_option maxHeartbeats 4000000 in
/-- The result buffer after the host operations that follow the region. -/
theorem result_eq (c : Dev nD) :
    Pipeline.afterTail₀ cfgs (dats m) 0 (V0 m) [hostOps1, hostOps1_1, hostOps1_2, hostOps1_3, hostOps1_4] c main_v20
      = Cert.Bins.means bcast_S_S10 bcast_S10_S1x10_1 concatenates_S1x10_S1x10_S2x10_d0
          (stat ((dats m 0 c).arrAt 2 cfg0.N) ![0, 0] slices_S3x128_S1x10_0_0)
          (stat ((dats m 0 c).arrAt 2 cfg0.N) ![1, 0] slices_S3x128_S1x10_1_0)
          (stat ((dats m 0 c).arrAt 2 cfg0.N) ![2, 0] slices_S3x128_S1x10_2_0) := by
  unfold Pipeline.afterTail₀
  simp only [hostOps1, hostOps1_1, hostOps1_2, hostOps1_3, hostOps1_4, List.flatten_cons, List.flatten_nil, List.append_nil,
    List.cons_append, List.nil_append]
  after_results_simp
  have hW := Pipeline.withArrays_arr spec0 launch0.win.arr_inj c (V0 m c) (fun w => (dats m 0 c).arrAt w (cfgs 0).N) 2
  rw [← hW]
  rfl

end Cert.KernelIdeal.Tail

end
-- ==== Proof.Totals.lean ====
/-
  The kernel's three statistics are the specification's.

  For each bin b ≤ 9 the program's count (sum of confidences, sum of labels) is: zero, plus over the two halves,
  the sum over the 128 lanes of row b of the half's running array after its last step; that entry is the sum over the
  half's 32 steps of row b of the step's stack at that lane; and that is the sum over the step's 4096 rows of the
  entry's term times the 0/1 indicator of "the entry's bin is b" — directly for b ≤ 8, and for b = 9 because the
  column total minus the sums for bins 0 … 8 is the sum for bin 9: every term is a real number (the logits are
  finite, so the confidences are real; labels and ones are) and every bin word lies in 0 … 9, so the ten
  indicators add up to one. Re-ordering the four-fold sum over (half, lane, step, row) into the sum over the flat
  array gives the specification's per-bin sum.
-/
import proofs.«180970_j44813688766553_2_alg».proof.Proof.StepAt
import proofs.«180970_j44813688766553_2_alg».proof.Proof.Halves
import proofs.«180970_j44813688766553_2_alg».proof.Proof.Inputs
import proofs.«180970_j44813688766553_2_alg».proof.Proof.BinTotals
import proofs.«180970_j44813688766553_2_alg».proof.Proof.Tail
import Idealize.ShloMosaic.Lib.IdealHost
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.KernelIdeal.Totals

open Cert.KernelIdeal Cert.KernelIdeal.Gen Cert.KernelIdeal.Step Cert.KernelIdeal.StepAt Cert.KernelIdeal.Running
open Cert.KernelIdeal.Halves Cert.KernelIdeal.Inputs Cert.KernelIdeal.Tail Cert.BinAlgebra Cert.BinTotals

variable (m : (ℓ : Loc nD τ sig) → Buf (Elt Ideal) ℓ)

/-- The two argument arrays on core c. -/
abbrev logits (c : Dev nD) : FVec Ideal S33554432 .f32 := m ((c : Thread nD τ).loc main_arg0)
abbrev labels (c : Dev nD) : IVec S33554432 32 := m ((c : Thread nD τ).loc main_arg1)

/-! ## The running arrays at an entry -/

theorem zero_cnt (i : S16x128.Idx) : k0_pay44 (F := Ideal) i = 0 := by
  unfold k0_pay44; rw [shapeCast_self]; exact Ideal.ofBits_zero_f32
theorem zero_conf (i : S16x128.Idx) : k0_pay45 (F := Ideal) i = 0 := by
  unfold k0_pay45; rw [shapeCast_self]; exact Ideal.ofBits_zero_f32
theorem zero_pos (i : S16x128.Idx) : k0_pay46 (F := Ideal) i = 0 := by
  unfold k0_pay46; rw [shapeCast_self]; exact Ideal.ofBits_zero_f32

/-- A quantity that restarts from zero at every 32nd point and otherwise adds the point's term holds, after point n,
    the sum of the terms of the points since the last restart. -/
theorem run_sum (a st : ℕ → EReal) (hf : ∀ n, n % 32 = 0 → a n = 0 + st n)
    (hn : ∀ n, ¬(n + 1) % 32 = 0 → a (n + 1) = a n + st (n + 1)) (n : ℕ) :
    a n = ∑ s ∈ Finset.range (n % 32 + 1), st (n - n % 32 + s) := by
  induction n with
  | zero => rw [hf 0 rfl]; simp
  | succ n ih =>
    by_cases h0 : (n + 1) % 32 = 0
    · rw [hf _ h0, h0]; simp
    · have e1 : (n + 1) % 32 = n % 32 + 1 := by omega
      have e2 : n + 1 - (n % 32 + 1) = n - n % 32 := by omega
      have e3 : n - n % 32 + (n % 32 + 1) = n + 1 := by omega
      rw [hn n h0, ih, e1, e2, Finset.sum_range_succ _ (n % 32 + 1), e3]

theorem run_sum_last (a st : ℕ → EReal) (hf : ∀ n, n % 32 = 0 → a n = 0 + st n)
    (hn : ∀ n, ¬(n + 1) % 32 = 0 → a (n + 1) = a n + st (n + 1)) (h : ℕ) :
    a (32 * h + 31) = ∑ s ∈ Finset.range 32, st (32 * h + s) := by
  have key := run_sum a st hf hn (32 * h + 31)
  have e1 : (32 * h + 31) % 32 + 1 = 32 := by omega
  have e2 : 32 * h + 31 - (32 * h + 31) % 32 = 32 * h := by omega
  rw [e1, e2] at key
  exact key

theorem acc_cnt_at (c : Dev nD) (i : S16x128.Idx) (h : ℕ) :
    (acc m c (32 * h + 31)).1 i = ∑ s ∈ Finset.range 32, stackCnt (blk0 m c (32 * h + s)) i :=
  run_sum_last (fun n => (acc m c n).1 i) (fun n => stackCnt (blk0 m c n) i)
    (fun n h0 => by
      show (acc m c n).1 i = 0 + stackCnt (blk0 m c n) i
      rw [acc_first m c n h0]; show k0_pay44 (F := Ideal) i + _ = _; rw [zero_cnt])
    (fun n h0 => by
      show (acc m c (n + 1)).1 i = (acc m c n).1 i + stackCnt (blk0 m c (n + 1)) i
      rw [acc_next m c n h0]; rfl) h

theorem acc_conf_at (c : Dev nD) (i : S16x128.Idx) (h : ℕ) :
    (acc m c (32 * h + 31)).2.1 i = ∑ s ∈ Finset.range 32, stackConf (blk0 m c (32 * h + s)) i :=
  run_sum_last (fun n => (acc m c n).2.1 i) (fun n => stackConf (blk0 m c n) i)
    (fun n h0 => by
      show (acc m c n).2.1 i = 0 + stackConf (blk0 m c n) i
      rw [acc_first m c n h0]; show k0_pay45 (F := Ideal) i + _ = _; rw [zero_conf])
    (fun n h0 => by
      show (acc m c (n + 1)).2.1 i = (acc m c n).2.1 i + stackConf (blk0 m c (n + 1)) i
      rw [acc_next m c n h0]; rfl) h

theorem acc_pos_at (c : Dev nD) (i : S16x128.Idx) (h : ℕ) :
    (acc m c (32 * h + 31)).2.2 i = ∑ s ∈ Finset.range 32, stackPos (blk0 m c (32 * h + s)) (blk1 m c (32 * h + s)) i :=
  run_sum_last (fun n => (acc m c n).2.2 i) (fun n => stackPos (blk0 m c n) (blk1 m c n) i)
    (fun n h0 => by
      show (acc m c n).2.2 i = 0 + stackPos (blk0 m c n) (blk1 m c n) i
      rw [acc_first m c n h0]; show k0_pay46 (F := Ideal) i + _ = _; rw [zero_pos])
    (fun n h0 => by
      show (acc m c (n + 1)).2.2 i = (acc m c n).2.2 i + stackPos (blk0 m c (n + 1)) (blk1 m c (n + 1)) i
      rw [acc_next m c n h0]; rfl) h

/-! ## A stack at (bin, lane) -/

/-- Row b ≤ 9 of a stack at a lane, when its rows for b ≤ 8 are the masked column sums of real terms `q` under bin
    words `k` in 0 … 9 and its total row is the column sum of `q`: the masked column sum for bin b. -/
theorem stack_entry (tot : FVec Ideal S1x128 .f32) (rows : BitVec 32 → FVec Ideal S1x128 .f32) (l : Fin 128)
    (q : Fin 4096 → EReal) (k : Fin 4096 → BitVec 32) (hq : ∀ r, ∃ v : ℝ, q r = (v : EReal))
    (hk : ∀ r, 0 ≤ (k r).toInt ∧ (k r).toInt ≤ 9)
    (htot : tot (ix2 (0 : Fin 1) l) = ∑ r, q r)
    (hrows : ∀ b : ℕ, b ≤ 8 → rows (BitVec.ofNat 32 b) (ix2 (0 : Fin 1) l) = ∑ r, q r * ind k b r)
    (b : Fin 10) :
    stack (F := Ideal) tot rows (ix2 (⟨b.val, by omega⟩ : Fin 16) l) = ∑ r, q r * ind k b.val r := by
  fin_cases b
  · exact (stack_row0 tot rows l).trans (hrows 0 (by decide))
  · exact (stack_row1 tot rows l).trans (hrows 1 (by decide))
  · exact (stack_row2 tot rows l).trans (hrows 2 (by decide))
  · exact (stack_row3 tot rows l).trans (hrows 3 (by decide))
  · exact (stack_row4 tot rows l).trans (hrows 4 (by decide))
  · exact (stack_row5 tot rows l).trans (hrows 5 (by decide))
  · exact (stack_row6 tot rows l).trans (hrows 6 (by decide))
  · exact (stack_row7 tot rows l).trans (hrows 7 (by decide))
  · exact (stack_row8 tot rows l).trans (hrows 8 (by decide))
  · refine (stack_row9 tot rows l).trans ?_
    rw [lastRow_at, htot]
    have e := fun b hb => hrows b hb
    rw [show rows 0#32 (ix2 (0 : Fin 1) l) = _ from e 0 (by decide), show rows 1#32 (ix2 (0 : Fin 1) l) = _ from e 1 (by decide),
      show rows 2#32 (ix2 (0 : Fin 1) l) = _ from e 2 (by decide), show rows 3#32 (ix2 (0 : Fin 1) l) = _ from e 3 (by decide),
      show rows 4#32 (ix2 (0 : Fin 1) l) = _ from e 4 (by decide), show rows 5#32 (ix2 (0 : Fin 1) l) = _ from e 5 (by decide),
      show rows 6#32 (ix2 (0 : Fin 1) l) = _ from e 6 (by decide), show rows 7#32 (ix2 (0 : Fin 1) l) = _ from e 7 (by decide),
      show rows 8#32 (ix2 (0 : Fin 1) l) = _ from e 8 (by decide)]
    exact last_bin q hq k hk

/-- The bin word of entry (r, l) of the block of half h, step s: the bin of the flat entry. -/
theorem bin_flat (c : Dev nD) (h : Fin 2) (s : Fin 32) (r : Fin 4096) (l : Fin 128) :
    k0_pay48 (F := Ideal) (blk0 m c (32 * h.val + s.val)) (ix2 r l) = Cert.Bins.binOf (logits m c) (flat h s r l) := by
  rw [bin_at, logits_at]; rfl

/-- Row b of the counts stack of half h, step s, at lane l. -/
theorem cnt_entry (c : Dev nD) (h : Fin 2) (s : Fin 32) (l : Fin 128) (b : Fin 10) :
    stackCnt (F := Ideal) (blk0 m c (32 * h.val + s.val)) (ix2 (⟨b.val, by omega⟩ : Fin 16) l)
      = ∑ r : Fin 4096, (fun _ : Fin 33554432 => (1 : EReal)) (flat h s r l)
          * ind (fun r' : Fin 4096 => Cert.Bins.binOf (logits m c) (flat h s r' l)) b.val r := by
  unfold stackCnt
  refine stack_entry _ _ l (fun _ => 1) (fun r' : Fin 4096 => Cert.Bins.binOf (logits m c) (flat h s r' l)) (fun _ => one_real)
    (fun r => binWord_range _) ?_ ?_ b
  · show k0_pay52 (F := Ideal) (ix2 (0 : Fin 1) l) = _
    unfold k0_pay52
    exact word_4096
  · intro b' hb'
    unfold cntRows
    rw [colSum_at]
    refine Finset.sum_congr rfl fun r _ => ?_
    rw [mask_at, bin_flat]
    exact one_mul_ind (fun r' : Fin 4096 => Cert.Bins.binOf (logits m c) (flat h s r' l)) b' r

/-- Row b of the confidences stack of half h, step s, at lane l, when the logits are real. -/
theorem conf_entry (c : Dev nD) (hx : ∀ e : Fin 33554432, ∃ v : ℝ, logits m c (ix1 e) = (v : EReal))
    (h : Fin 2) (s : Fin 32) (l : Fin 128) (b : Fin 10) :
    stackConf (F := Ideal) (blk0 m c (32 * h.val + s.val)) (ix2 (⟨b.val, by omega⟩ : Fin 16) l)
      = ∑ r : Fin 4096, (fun e : Fin 33554432 => Cert.Bins.conf (logits m c (ix1 e))) (flat h s r l)
          * ind (fun r' : Fin 4096 => Cert.Bins.binOf (logits m c) (flat h s r' l)) b.val r := by
  unfold stackConf
  refine stack_entry _ _ l (fun r => Cert.Bins.conf (logits m c (ix1 (flat h s r l)))) _
    (fun r => by obtain ⟨v, hv⟩ := hx (flat h s r l); rw [hv]; exact conf_real v) (fun r => binWord_range _) ?_ ?_ b
  · rw [colSum_at]
    exact Finset.sum_congr rfl fun r _ => by rw [conf_at, logits_at]
  · intro b' hb'
    unfold confRows
    rw [colSum_at]
    refine Finset.sum_congr rfl fun r _ => ?_
    rw [mulf_apply, mask_at, bin_flat, conf_at, logits_at]
    rfl

/-- Row b of the labels stack of half h, step s, at lane l. -/
theorem pos_entry (c : Dev nD) (h : Fin 2) (s : Fin 32) (l : Fin 128) (b : Fin 10) :
    stackPos (F := Ideal) (blk0 m c (32 * h.val + s.val)) (blk1 m c (32 * h.val + s.val)) (ix2 (⟨b.val, by omega⟩ : Fin 16) l)
      = ∑ r : Fin 4096, (fun e : Fin 33554432 => (FloatOps.sitofp .f32 (labels m c (ix1 e)) : Ideal .f32)) (flat h s r l)
          * ind (fun r' : Fin 4096 => Cert.Bins.binOf (logits m c) (flat h s r' l)) b.val r := by
  unfold stackPos
  refine stack_entry _ _ l (fun r => (FloatOps.sitofp .f32 (labels m c (ix1 (flat h s r l))) : Ideal .f32)) _
    (fun r => lab_real _) (fun r => binWord_range _) ?_ ?_ b
  · rw [colSum_at]
    exact Finset.sum_congr rfl fun r _ => by rw [lab_at, labels_at]
  · intro b' hb'
    unfold posRows
    rw [colSum_at]
    refine Finset.sum_congr rfl fun r _ => ?_
    rw [mulf_apply, mask_at, bin_flat, lab_at, labels_at]
    rfl

/-! ## The statistics through the host operations -/

/-- A statistic at bin b: zero plus, over the two halves, row j of the region's array at lane b. -/
theorem stat_at (A : FVec Ideal S2x3x128 .f32) (j : Fin 3) (off : Fin 2 → Nat) (hoff : off = ![j.val, 0])
    (hs : S3x128.Slices off S1x10) (b : Fin 10) :
    stat A off hs (ix1 b) = 0 + ∑ h : Fin 2, A (ix3 h j (⟨b.val, by omega⟩ : Fin 128)) := by
  subst hoff
  unfold stat
  rw [shapeCast_1a_a_apply]
  rw [extractStridedSlice_apply _ _ _ _ (ix2 j (⟨b.val, by omega⟩ : Fin 128)) (fun a => by
    match a with
    | ⟨0, _⟩ => show j.val = j.val + 0; omega
    | ⟨1, _⟩ => show b.val = 0 + b.val; omega)]
  refine (Ideal.hostReduceAdd_single reducesTo_S2x3x128_S3x128_d0 (by decide) A _ (ix2 j (⟨b.val, by omega⟩ : Fin 128))).trans ?_
  congr 1
  · exact Ideal.ofBits_zero_f32
  · exact Finset.sum_congr rfl fun h _ => congrArg A (funext fun a => by
      match a with
      | ⟨0, _⟩ => rfl
      | ⟨1, _⟩ => rfl
      | ⟨2, _⟩ => rfl)

/-- The program's counts vector is the specification's. -/
theorem counts_total (c : Dev nD) (b : Fin 10) :
    stat (outArr m c) ![0, 0] slices_S3x128_S1x10_0_0 (ix1 b) = Cert.Bins.counts (logits m c) (ix1 b) := by
  refine (stat_at (outArr m c) (0 : Fin 3) ![0, 0] rfl _ b).trans ?_
  have e : ∀ h : Fin 2, outArr m c (ix3 h (0 : Fin 3) (⟨b.val, by omega⟩ : Fin 128))
      = ∑ l : Fin 128, ∑ s ∈ Finset.range 32, (if hs : s < 32 then
          ∑ r : Fin 4096, (fun _ : Fin 33554432 => (1 : EReal)) (flat h ⟨s, hs⟩ r l)
            * ind (fun r' : Fin 4096 => Cert.Bins.binOf (logits m c) (flat h ⟨s, hs⟩ r' l)) b.val r else 0) := by
    intro h
    unfold outArr
    refine (outBlock_at _ _ _ (0 : Fin 3) b).trans ?_
    refine Finset.sum_congr rfl fun l _ => ?_
    show (acc m c (32 * h.val + 31)).1 (ix2 (⟨b.val, by omega⟩ : Fin 16) l) = _
    rw [acc_cnt_at]
    refine Finset.sum_congr rfl fun s hs => ?_
    have hs' : s < 32 := Finset.mem_range.mp hs
    rw [dif_pos hs']
    exact cnt_entry m c h ⟨s, hs'⟩ l b
  simp only [e]
  exact total_eq' (fun _ : Fin 33554432 => (1 : EReal)) (Cert.Bins.binOf (logits m c)) b.val (by omega)

/-- The program's sumConf vector is the specification's. -/
theorem sumConf_total (c : Dev nD) (hx : ∀ e : Fin 33554432, ∃ v : ℝ, logits m c (ix1 e) = (v : EReal)) (b : Fin 10) :
    stat (outArr m c) ![1, 0] slices_S3x128_S1x10_1_0 (ix1 b) = Cert.Bins.sumConf (logits m c) (ix1 b) := by
  refine (stat_at (outArr m c) (1 : Fin 3) ![1, 0] rfl _ b).trans ?_
  have e : ∀ h : Fin 2, outArr m c (ix3 h (1 : Fin 3) (⟨b.val, by omega⟩ : Fin 128))
      = ∑ l : Fin 128, ∑ s ∈ Finset.range 32, (if hs : s < 32 then
          ∑ r : Fin 4096, (fun e : Fin 33554432 => Cert.Bins.conf (logits m c (ix1 e))) (flat h ⟨s, hs⟩ r l)
            * ind (fun r' : Fin 4096 => Cert.Bins.binOf (logits m c) (flat h ⟨s, hs⟩ r' l)) b.val r else 0) := by
    intro h
    unfold outArr
    refine (outBlock_at _ _ _ (1 : Fin 3) b).trans ?_
    refine Finset.sum_congr rfl fun l _ => ?_
    show (acc m c (32 * h.val + 31)).2.1 (ix2 (⟨b.val, by omega⟩ : Fin 16) l) = _
    rw [acc_conf_at]
    refine Finset.sum_congr rfl fun s hs => ?_
    have hs' : s < 32 := Finset.mem_range.mp hs
    rw [dif_pos hs']
    exact conf_entry m c hx h ⟨s, hs'⟩ l b
  simp only [e]
  exact total_eq' (fun e : Fin 33554432 => Cert.Bins.conf (logits m c (ix1 e))) (Cert.Bins.binOf (logits m c)) b.val (by omega)

/-- The program's sumPos vector is the specification's. -/
theorem sumPos_total (c : Dev nD) (b : Fin 10) :
    stat (outArr m c) ![2, 0] slices_S3x128_S1x10_2_0 (ix1 b) = Cert.Bins.sumPos (logits m c) (labels m c) (ix1 b) := by
  refine (stat_at (outArr m c) (2 : Fin 3) ![2, 0] rfl _ b).trans ?_
  have e : ∀ h : Fin 2, outArr m c (ix3 h (2 : Fin 3) (⟨b.val, by omega⟩ : Fin 128))
      = ∑ l : Fin 128, ∑ s ∈ Finset.range 32, (if hs : s < 32 then
          ∑ r : Fin 4096, (fun e : Fin 33554432 => (FloatOps.sitofp .f32 (labels m c (ix1 e)) : Ideal .f32)) (flat h ⟨s, hs⟩ r l)
            * ind (fun r' : Fin 4096 => Cert.Bins.binOf (logits m c) (flat h ⟨s, hs⟩ r' l)) b.val r else 0) := by
    intro h
    unfold outArr
    refine (outBlock_at _ _ _ (2 : Fin 3) b).trans ?_
    refine Finset.sum_congr rfl fun l _ => ?_
    show (acc m c (32 * h.val + 31)).2.2 (ix2 (⟨b.val, by omega⟩ : Fin 16) l) = _
    rw [acc_pos_at]
    refine Finset.sum_congr rfl fun s hs => ?_
    have hs' : s < 32 := Finset.mem_range.mp hs
    rw [dif_pos hs']
    exact pos_entry m c h ⟨s, hs'⟩ l b
  simp only [e]
  exact total_eq' (fun e : Fin 33554432 => (FloatOps.sitofp .f32 (labels m c (ix1 e)) : Ideal .f32)) (Cert.Bins.binOf (logits m c)) b.val (by omega)

end Cert.KernelIdeal.Totals

end
-- ==== Proof.KernelRun.lean ====
/-
  The idealized kernel's run ends at the specification.

  The frame run states the result buffer through the host operations after the region, over the region's final
  array; that array is the two halves' output blocks; and the three statistics read through the host operations
  are the specification's per-bin sums when every logit is a real number. So every weakly fair execution ends with
  the result buffer at the specification's two rows of means of the argument arrays, the arguments unchanged.
-/
import proofs.«180970_j44813688766553_2_alg».proof.Proof.Totals

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.Halves Cert.KernelIdeal.Tail Cert.KernelIdeal.Totals

variable (m : (ℓ : Loc nD τ sig) → Buf (Elt Ideal) ℓ) (ρ : Dev nD → PrngReg)

/-- The result buffer after the host operations is the specification of the argument arrays. -/
theorem result_spec (c : Dev nD) (hx : ∀ e : Fin 33554432, ∃ v : ℝ, logits m c (ix1 e) = (v : EReal)) :
    Pipeline.afterTail₀ cfgs (dats m) 0 (V0 m) [hostOps1, hostOps1_1, hostOps1_2, hostOps1_3, hostOps1_4] c main_v20
      = Cert.Bins.result bcast_S_S10 bcast_S10_S1x10_1 concatenates_S1x10_S1x10_S2x10_d0 (logits m c) (labels m c) := by
  rw [result_eq, final_out]
  have e0 : stat (outArr m c) ![0, 0] slices_S3x128_S1x10_0_0 = Cert.Bins.counts (logits m c) := funext fun i => by
    obtain ⟨b, rfl⟩ : ∃ b : Fin 10, i = ix1 b := ⟨i 0, eq_ix1 i⟩
    exact counts_total m c b
  have e1 : stat (outArr m c) ![1, 0] slices_S3x128_S1x10_1_0 = Cert.Bins.sumConf (logits m c) := funext fun i => by
    obtain ⟨b, rfl⟩ : ∃ b : Fin 10, i = ix1 b := ⟨i 0, eq_ix1 i⟩
    exact sumConf_total m c hx b
  have e2 : stat (outArr m c) ![2, 0] slices_S3x128_S1x10_2_0 = Cert.Bins.sumPos (logits m c) (labels m c) := funext fun i => by
    obtain ⟨b, rfl⟩ : ∃ b : Fin 10, i = ix1 b := ⟨i 0, eq_ix1 i⟩
    exact sumPos_total m c b
  rw [e0, e1, e2]
  rfl

/-- Every weakly fair execution of the idealized kernel from a memory whose logits are real ends with the result at
    the specification and the arguments unchanged. -/
theorem run (hx : ∀ (c : Dev nD) (e : Fin 33554432), ∃ v : ℝ, logits m c (ix1 e) = (v : EReal)) :
    θ_run defs (onTc (τ := τ) (main (F := Ideal))) ⟨m, fun _ => 0, ρ⟩ (fun r => ∀ c : Dev nD,
      r.2.mem ((c.tc : Thread nD τ).loc main_v20)
          = Cert.Bins.result bcast_S_S10 bcast_S10_S1x10_1 concatenates_S1x10_S1x10_S2x10_d0 (logits m c) (labels m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans (result_spec m c (hx c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.lean ====
/-
  The ten-bin reliability statistics: a tiled kernel against its flat reference, over the extended reals.

  Both programs take 2^25 logits and labels. An entry's confidence is the logistic of its logit, its bin is
  ⌈10 · confidence⌉ − 1 clipped into 0 … 9, and for each bin the count, the sum of confidences and the sum of labels
  over the bin's entries are formed; the result is, per bin, the mean label and the mean confidence (each sum over
  max(count, 1), zero for an empty bin).

  The reference scatters the three arrays into ten bins once. The kernel walks the entries as 2 halves × 32 steps
  of 4096 × 128 blocks; a step sums, per lane, the masked entries of bins 0 … 8 down the rows and takes bin 9 as the
  lane's total minus those nine sums, adds the resulting rows to three running arrays, and on a half's last step
  sums each running row over the lanes; the host adds the two halves. Over the extended reals the two results are
  equal because (i) the logistic the kernel applies is the quotient the reference spells, and all other entrywise
  operations are the same; (ii) addition is commutative and associative, so the kernel's order of summation does
  not matter; (iii) bin 9 by difference is exact: with finite logits every term is a real number, and every bin word
  is one of 0 … 9, so the ten masks add up to one. Only (iii) uses the precondition.

  The two kernel programs' frames are the generated frame certificates; the reference's is its run with the result
  forgotten; the idealization rewrote nothing, so that claim is trivial.
-/
import proofs.«180970_j44813688766553_2_alg».proof.Defs
import proofs.«180970_j44813688766553_2_alg».proof.Proof.Gen.Kernel
import proofs.«180970_j44813688766553_2_alg».proof.Proof.Gen.Kernel.Skeleton
import proofs.«180970_j44813688766553_2_alg».proof.Proof.Gen.Kernel.Launch
import proofs.«180970_j44813688766553_2_alg».proof.Proof.Gen.Kernel.Points
import proofs.«180970_j44813688766553_2_alg».proof.Proof.Gen.Kernel.Frame
import proofs.«180970_j44813688766553_2_alg».proof.Proof.Gen.KernelIdeal
import proofs.«180970_j44813688766553_2_alg».proof.Proof.Gen.KernelIdeal.Skeleton
import proofs.«180970_j44813688766553_2_alg».proof.Proof.Gen.KernelIdeal.Launch
import proofs.«180970_j44813688766553_2_alg».proof.Proof.Gen.KernelIdeal.Points
import proofs.«180970_j44813688766553_2_alg».proof.Proof.Gen.KernelIdeal.Frame
import proofs.«180970_j44813688766553_2_alg».proof.Proof.Gen.ReferenceIdeal
import proofs.«180970_j44813688766553_2_alg».proof.Proof.Gen.Pre_finite_inputs
import proofs.«180970_j44813688766553_2_alg».proof.Proof.RefRun
import proofs.«180970_j44813688766553_2_alg».proof.Proof.RefSide
import proofs.«180970_j44813688766553_2_alg».proof.Proof.FiniteLogits
import proofs.«180970_j44813688766553_2_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end at the specification of the argument arrays: the kernel because its logits are
    finite, hence real; the reference always. The arrays agree, so the results do. -/
theorem algebraic : Cert.algebraic_KernelIdeal_ReferenceIdeal := by
  intro m ρ m' ρ' hpre hagree
  refine ⟨_, Cert.KernelIdeal.Value.run m ρ (fun c e => Cert.FiniteLogits.real_of_pre _ _ (hpre c) (ix1 e)), ?_⟩
  refine (θ_run Cert.ReferenceIdeal.defs _ _).mono (fun _ h c => ⟨(h c).1.trans ?_, (h c).2⟩)
    (Cert.ReferenceIdeal.ValueP.run (F := Ideal) m' ρ')
  rw [Cert.RefSide.ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
